-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x768 : Shape := ⟨4, ![32, 64, 64, 768]⟩
abbrev S192x768 : Shape := ⟨2, ![192, 768]⟩
abbrev S192 : Shape := ⟨1, ![192]⟩
abbrev S768x64 : Shape := ⟨2, ![768, 64]⟩
abbrev S768 : Shape := ⟨1, ![768]⟩
abbrev S_ : Shape := ⟨0, ![]⟩

class Facts : Prop where
  bcast_S_S32x64x64x768 : S_.BroadcastsInDim S32x64x64x768 (![] : Fin 0 → Fin S32x64x64x768.rank)
  reducesTo_S32x64x64x768_S_d0_1_2_3 : S32x64x64x768.ReducesTo [0, 1, 2, 3] S_
  h_S_ : 0 < S_.numel
  bcast_S_S192x768 : S_.BroadcastsInDim S192x768 (![] : Fin 0 → Fin S192x768.rank)
  reducesTo_S192x768_S_d0_1 : S192x768.ReducesTo [0, 1] S_
  bcast_S_S192 : S_.BroadcastsInDim S192 (![] : Fin 0 → Fin S192.rank)
  reducesTo_S192_S_d0 : S192.ReducesTo [0] S_
  bcast_S_S768x64 : S_.BroadcastsInDim S768x64 (![] : Fin 0 → Fin S768x64.rank)
  reducesTo_S768x64_S_d0_1 : S768x64.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x64x64x768 .f32) (main_arg1 : FVec F S192x768 .f32) (main_arg2 : FVec F S192 .f32) (main_arg3 : FVec F S768x64 .f32) (main_arg4 : FVec F S768 .f32) : IVec S_ 1 :=
  let main_v0 : FVec F S32x64x64x768 .f32 := Host.absf main_arg0
  let main_cst : FVec F S_ .f32 := constant S_ .f32 0x7F800000#32
  let main_v1 : FVec F S32x64x64x768 .f32 := broadcastInDim S32x64x64x768 ![] bcast_S_S32x64x64x768 main_cst
  let main_v2 : IVec S32x64x64x768 1 := cmpf .olt main_v0 main_v1
  let main_c : IVec S_ 1 := constantI S_ 1 1#1
  let main_v3 : IVec S_ 1 := (fun x v => Host.reduce IntOp.andi x v reducesTo_S32x64x64x768_S_d0_1_2_3 h_S_) main_v2 main_c
  let main_v4 : FVec F S192x768 .f32 := Host.absf main_arg1
  let main_cst_0 : FVec F S_ .f32 := constant S_ .f32 0x7F800000#32
  let main_v5 : FVec F S192x768 .f32 := broadcastInDim S192x768 ![] bcast_S_S192x768 main_cst_0
  let main_v6 : IVec S192x768 1 := cmpf .olt main_v4 main_v5
  let main_c_1 : IVec S_ 1 := constantI S_ 1 1#1
  let main_v7 : IVec S_ 1 := (fun x v => Host.reduce IntOp.andi x v reducesTo_S192x768_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_v13 main_v16
-- ==== Kernel.lean ====
abbrev S32x64x64x768 : Shape := ⟨4, ![32, 64, 64, 768]⟩
abbrev S192x768 : Shape := ⟨2, ![192, 768]⟩
abbrev S192 : Shape := ⟨1, ![192]⟩
abbrev S768x64 : Shape := ⟨2, ![768, 64]⟩
abbrev S768 : Shape := ⟨1, ![768]⟩
abbrev S2048x64x768 : Shape := ⟨3, ![2048, 64, 768]⟩
abbrev S64x768 : Shape := ⟨2, ![64, 768]⟩
abbrev S64 : Shape := ⟨1, ![64]⟩
abbrev S1x64 : Shape := ⟨2, ![1, 64]⟩
abbrev S1x768 : Shape := ⟨2, ![1, 768]⟩
abbrev S32x64x768 : Shape := ⟨3, ![32, 64, 768]⟩
abbrev S2048x768 : Shape := ⟨2, ![2048, 768]⟩
abbrev S2048x64 : Shape := ⟨2, ![2048, 64]⟩
abbrev S32x64x64 : Shape := ⟨3, ![32, 64, 64]⟩
abbrev S32x64 : Shape := ⟨2, ![32, 64]⟩
abbrev S32x64x1 : Shape := ⟨3, ![32, 64, 1]⟩

abbrev nBuf : Space → Nat
  | .hbm => 22
  | .vmem => 12
  | .smem => 0
  | _ => 0

abbrev bufTy : (tb : Table) → Fin (tcTables nBuf tb) → BufTy
  | .hbm, ⟨0, _⟩ => ⟨S32x64x64x768, .f32⟩
  | .hbm, ⟨1, _⟩ => ⟨S192x768, .f32⟩
  | .hbm, ⟨2, _⟩ => ⟨S192, .f32⟩
  | .hbm, ⟨3, _⟩ => ⟨S768x64, .f32⟩
  | .hbm, ⟨4, _⟩ => ⟨S768, .f32⟩
  | .hbm, ⟨5, _⟩ => ⟨S2048x64x768, .f32⟩
  | .hbm, ⟨6, _⟩ => ⟨S64x768, .f32⟩
  | .hbm, ⟨7, _⟩ => ⟨S64x768, .f32⟩
  | .hbm, ⟨8, _⟩ => ⟨S64x768, .f32⟩
  | .hbm, ⟨9, _⟩ => ⟨S768x64, .f32⟩
  | .hbm, ⟨10, _⟩ => ⟨S768x64, .f32⟩
  | .hbm, ⟨11, _⟩ => ⟨S768x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64x768, .f32⟩
  | .hbm, ⟨19, _⟩ => ⟨S1x768, .f32⟩
  | .hbm, ⟨20, _⟩ => ⟨S2048x64x768, .f32⟩
  | .hbm, ⟨21, _⟩ => ⟨S32x64x64x768, .f32⟩
  | .local _ .vmem, ⟨0, _⟩ => ⟨S32x64x768, .f32⟩
  | .local _ .vmem, ⟨1, _⟩ => ⟨S32x64x768, .f32⟩
  | .local _ .vmem, ⟨2, _⟩ => ⟨S768x64, .f32⟩
  | .local _ .vmem, ⟨3, _⟩ => ⟨S768x64, .f32⟩
  | .local _ .vmem, ⟨4, _⟩ => ⟨S768x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x768, .f32⟩
  | .local _ .vmem, ⟨9, _⟩ => ⟨S1x768, .f32⟩
  | .local _ .vmem, ⟨10, _⟩ => ⟨S32x64x768, .f32⟩
  | .local _ .vmem, ⟨11, _⟩ => ⟨S32x64x768, .f32⟩
  | _, _ => ⟨S32x64x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x64x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x64x64x768_S2048x64x768 : S32x64x64x768.ShapeCasts S2048x64x768
  slices_S192x768_S64x768_0_0 : S192x768.Slices ![0, 0] S64x768
  slices_S192x768_S64x768_64_0 : S192x768.Slices ![64, 0] S64x768
  slices_S192x768_S64x768_128_0 : S192x768.Slices ![128, 0] S64x768
  transposes_S64x768_S768x64_1_0 : S64x768.Transposes [1, 0] S768x64
  slices_S192_S64_0 : S192.Slices ![0] S64
  shapeCasts_S64_S1x64 : S64.ShapeCasts S1x64
  slices_S192_S64_64 : S192.Slices ![64] S64
  slices_S192_S64_128 : S192.Slices ![128] S64
  transposes_S768x64_S64x768_1_0 : S768x64.Transposes [1, 0] S64x768
  shapeCasts_S768_S1x768 : S768.ShapeCasts S1x768
  inb_S32x64x768_S32x64x768_0_0_0 : ∀ a, (![0, 0, 0] : Fin 3 → Nat) a + S32x64x768.size a ≤ S32x64x768.size a
  h_S32x64x768 : 0 < S32x64x768.numel
  shapeCasts_S32x64x768_S32x64x768 : S32x64x768.ShapeCasts S32x64x768
  shapeCasts_S32x64x768_S2048x768 : S32x64x768.ShapeCasts S2048x768
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S2048x64_S32x64x64 : S2048x64.ShapeCasts S32x64x64
  reduces_S32x64x64_S32x64 : S32x64x64.Reduces [2] S32x64
  shapeCasts_S32x64_S32x64x1 : S32x64.ShapeCasts S32x64x1
  broadcasts_S32x64x1_S32x64x64 : S32x64x1.Broadcasts S32x64x64
  shapeCasts_S32x64x64_S2048x64 : S32x64x64.ShapeCasts S2048x64
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S2048x768_S32x64x768 : S2048x768.ShapeCasts S32x64x768
  shapeCasts_S2048x64x768_S32x64x64x768 : S2048x64x768.ShapeCasts S32x64x64x768
  dot_S2048x768_S768x64_S2048x64_1_0_0_1_n_n_wf : DotDims.WF S2048x768 S768x64 S2048x64 [1] [0] [0] [1] [] []
  dot_S32x64x64_S32x64x64_S32x64x64_2_2_1_1_0_0_wf : DotDims.WF S32x64x64 S32x64x64 S32x64x64 [2] [2] [1] [1] [0] [0]
  dot_S32x64x64_S32x64x64_S32x64x64_2_1_1_2_0_0_wf : DotDims.WF S32x64x64 S32x64x64 S32x64x64 [2] [1] [1] [2] [0] [0]
  dot_S2048x64_S64x768_S2048x768_1_0_0_1_n_n_wf : DotDims.WF S2048x64 S64x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x768.size a ≤ S2048x64x768.size a
  hwx0_0 : ∀ i : grid0.Coords, EltTy.bits .f32 = 32 ∨ (Rect.block (s := S2048x64x768) S32x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .f32 = 32 ∨ (Rect.block (s := S768x64) S768x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x768.size a ≤ S64x768.size a
  hwx0_7 : ∀ i : grid0.Coords, EltTy.bits .f32 = 32 ∨ (Rect.block (s := S64x768) S64x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x64x768.size a ≤ S2048x64x768.size a
  hwx0_9 : ∀ i : grid0.Coords, EltTy.bits .f32 = 32 ∨ (Rect.block (s := S2048x64x768) S32x64x768.size (cc0_transform_9 i) (hinb0_9 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S32x64x64_S32x64x64_S32x64x64_2_2_1_1_0_0 : DotDims S32x64x64 S32x64x64 S32x64x64 where
  lhsContracting := [2]
  rhsContracting := [2]
  lhsNonContracting := [1]
  rhsNonContracting := [1]
  lhsBatch := [0]
  rhsBatch := [0]
  wf := dot_S32x64x64_S32x64x64_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S2048x64_S64x768_S2048x768_1_0_0_1_n_n : DotDims S2048x64 S64x768 S2048x768 where
  lhsContracting := [1]
  rhsContracting := [0]
  lhsNonContracting := [0]
  rhsNonContracting := [1]
  lhsBatch := []
  rhsBatch := []
  wf := dot_S2048x64_S64x768_S2048x768_1_0_0_1_n_n_wf

abbrev win0_0 : Pipeline.Window sig grid0 :=
  Pipeline.Window.ofSpec (Memref.whole main_v0) S32x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S32x64x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64x64x768 : Shape := ⟨4, ![32, 64, 64, 768]⟩
abbrev S192x768 : Shape := ⟨2, ![192, 768]⟩
abbrev S192 : Shape := ⟨1, ![192]⟩
abbrev S768x64 : Shape := ⟨2, ![768, 64]⟩
abbrev S768 : Shape := ⟨1, ![768]⟩
abbrev S32x64x64x192 : Shape := ⟨4, ![32, 64, 64, 192]⟩
abbrev S1x1x1x192 : Shape := ⟨4, ![1, 1, 1, 192]⟩
abbrev S32x64x64x64 : Shape := ⟨4, ![32, 64, 64, 64]⟩
abbrev S_ : Shape := ⟨0, ![]⟩
abbrev S32x64x64 : Shape := ⟨3, ![32, 64, 64]⟩
abbrev S32x64x64x1 : Shape := ⟨4, ![32, 64, 64, 1]⟩
abbrev S1x1x1x768 : Shape := ⟨4, ![1, 1, 1, 768]⟩

abbrev nBuf : Space → Nat
  | .hbm => 36
  | .vmem => 0
  | .smem => 0
  | _ => 0

abbrev bufTy : (tb : Table) → Fin (tcTables nBuf tb) → BufTy
  | .hbm, ⟨0, _⟩ => ⟨S32x64x64x768, .f32⟩
  | .hbm, ⟨1, _⟩ => ⟨S192x768, .f32⟩
  | .hbm, ⟨2, _⟩ => ⟨S192, .f32⟩
  | .hbm, ⟨3, _⟩ => ⟨S768x64, .f32⟩
  | .hbm, ⟨4, _⟩ => ⟨S768, .f32⟩
  | .hbm, ⟨5, _⟩ => ⟨S32x64x64x192, .f32⟩
  | .hbm, ⟨6, _⟩ => ⟨S1x1x1x192, .f32⟩
  | .hbm, ⟨7, _⟩ => ⟨S32x64x64x192, .f32⟩
  | .hbm, ⟨8, _⟩ => ⟨S32x64x64x192, .f32⟩
  | .hbm, ⟨9, _⟩ => ⟨S32x64x64x64, .f32⟩
  | .hbm, ⟨10, _⟩ => ⟨S32x64x64x64, .f32⟩
  | .hbm, ⟨11, _⟩ => ⟨S32x64x64x64, .f32⟩
  | .hbm, ⟨12, _⟩ => ⟨S32x64x64x64, .f32⟩
  | .hbm, ⟨13, _⟩ => ⟨S_, .f32⟩
  | .hbm, ⟨14, _⟩ => ⟨S_, .f32⟩
  | .hbm, ⟨15, _⟩ => ⟨S32x64x64x64, .f32⟩
  | .hbm, ⟨16, _⟩ => ⟨S32x64x64x64, .f32⟩
  | .hbm, ⟨17, _⟩ => ⟨S_, .f32⟩
  | .hbm, ⟨18, _⟩ => ⟨S32x64x64, .f32⟩
  | .hbm, ⟨19, _⟩ => ⟨S_, .f32⟩
  | .hbm, ⟨20, _⟩ => ⟨S32x64x64, .f32⟩
  | .hbm, ⟨21, _⟩ => ⟨S32x64x64, .f32⟩
  | .hbm, ⟨22, _⟩ => ⟨S32x64x64x1, .f32⟩
  | .hbm, ⟨23, _⟩ => ⟨S32x64x64x64, .f32⟩
  | .hbm, ⟨24, _⟩ => ⟨S32x64x64x64, .f32⟩
  | .hbm, ⟨25, _⟩ => ⟨S32x64x64x64, .f32⟩
  | .hbm, ⟨26, _⟩ => ⟨S_, .f32⟩
  | .hbm, ⟨27, _⟩ => ⟨S32x64x64, .f32⟩
  | .hbm, ⟨28, _⟩ => ⟨S32x64x64x1, .f32⟩
  | .hbm, ⟨29, _⟩ => ⟨S32x64x64x64, .f32⟩
  | .hbm, ⟨30, _⟩ => ⟨S32x64x64x64, .f32⟩
  | .hbm, ⟨31, _⟩ => ⟨S32x64x64x64, .f32⟩
  | .hbm, ⟨32, _⟩ => ⟨S32x64x64x768, .f32⟩
  | .hbm, ⟨33, _⟩ => ⟨S1x1x1x768, .f32⟩
  | .hbm, ⟨34, _⟩ => ⟨S32x64x64x768, .f32⟩
  | .hbm, ⟨35, _⟩ => ⟨S32x64x64x768, .f32⟩
  | _, _ => ⟨S32x64x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S192_S1x1x1x192_3 : S192.BroadcastsInDim S1x1x1x192 (![3] : Fin 1 → Fin S1x1x1x192.rank)
  bcast_S1x1x1x192_S32x64x64x192_0_1_2_3 : S1x1x1x192.BroadcastsInDim S32x64x64x192 (![0, 1, 2, 3] : Fin 4 → Fin S32x64x64x192.rank)
  slices_S32x64x64x192_S32x64x64x64_0_0_0_0 : S32x64x64x192.Slices ![0, 0, 0, 0] S32x64x64x64
  slices_S32x64x64x192_S32x64x64x64_0_0_0_64 : S32x64x64x192.Slices ![0, 0, 0, 64] S32x64x64x64
  slices_S32x64x64x192_S32x64x64x64_0_0_0_128 : S32x64x64x192.Slices ![0, 0, 0, 128] S32x64x64x64
  bcast_S_S32x64x64x64 : S_.BroadcastsInDim S32x64x64x64 (![] : Fin 0 → Fin S32x64x64x64.rank)
  reducesTo_S32x64x64x64_S32x64x64_d3 : S32x64x64x64.ReducesTo [3] S32x64x64
  h_S_ : 0 < S_.numel
  bcast_S_S32x64x64 : S_.BroadcastsInDim S32x64x64 (![] : Fin 0 → Fin S32x64x64.rank)
  bcast_S32x64x64_S32x64x64x1_0_1_2 : S32x64x64.BroadcastsInDim S32x64x64x1 (![0, 1, 2] : Fin 3 → Fin S32x64x64x1.rank)
  bcast_S32x64x64x1_S32x64x64x64_0_1_2_3 : S32x64x64x1.BroadcastsInDim S32x64x64x64 (![0, 1, 2, 3] : Fin 4 → Fin S32x64x64x64.rank)
  bcast_S768_S1x1x1x768_3 : S768.BroadcastsInDim S1x1x1x768 (![3] : Fin 1 → Fin S1x1x1x768.rank)
  bcast_S1x1x1x768_S32x64x64x768_0_1_2_3 : S1x1x1x768.BroadcastsInDim S32x64x64x768 (![0, 1, 2, 3] : Fin 4 → Fin S32x64x64x768.rank)
  dot_S32x64x64x768_S192x768_S32x64x64x192_3_1_012_0_n_n_wf : DotDims.WF S32x64x64x768 S192x768 S32x64x64x192 [3] [1] [0, 1, 2] [0] [] []
  dot_S32x64x64x64_S32x64x64x64_S32x64x64x64_3_3_2_2_01_01_wf : DotDims.WF S32x64x64x64 S32x64x64x64 S32x64x64x64 [3] [3] [2] [2] [0, 1] [0, 1]
  dot_S32x64x64x64_S32x64x64x64_S32x64x64x64_3_2_2_3_01_01_wf : DotDims.WF S32x64x64x64 S32x64x64x64 S32x64x64x64 [3] [2] [2] [3] [0, 1] [0, 1]
  dot_S32x64x64x64_S768x64_S32x64x64x768_3_1_012_0_n_n_wf : DotDims.WF S32x64x64x64 S768x64 S32x64x64x768 [3] [1] [0, 1, 2] [0] [] []

variable [Facts₀]

def dot_S32x64x64x768_S192x768_S32x64x64x192_3_1_012_0_n_n : DotDims S32x64x64x768 S192x768 S32x64x64x192 where
  lhsContracting := [3]
  rhsContracting := [1]
  lhsNonContracting := [0, 1, 2]
  rhsNonContracting := [0]
  lhsBatch := []
  rhsBatch := []
  wf := dot_S32x64x64x768_S192x768_S32x64x64x192_3_1_012_0_n_n_wf
def dot_S32x64x64x64_S32x64x64x64_S32x64x64x64_3_3_2_2_01_01 : DotDims S32x64x64x64 S32x64x64x64 S32x64x64x64 where
  lhsContracting := [3]
  rhsContracting := [3]
  lhsNonContracting := [2]
  rhsNonContracting := [2]
  lhsBatch := [0, 1]
  rhsBatch := [0, 1]
  wf := dot_S32x64x64x64_S32x64x64x64_S32x64x64x64_3_3_2_2_01_01_wf
def dot_S32x64x64x64_S32x64x64x64_S32x64x64x64_3_2_2_3_01_01 : DotDims S32x64x64x64 S32x64x64x64 S32x64x64x64 where
  lhsContracting := [3]
  rhsContracting := [2]
  lhsNonContracting := [2]
  rhsNonContracting := [3]
  lhsBatch := [0, 1]
  rhsBatch := [0, 1]
  wf := dot_S32x64x64x64_S32x64x64x64_S32x64x64x64_3_2_2_3_01_01_wf
def dot_S32x64x64x64_S768x64_S32x64x64x768_3_1_012_0_n_n : DotDims S32x64x64x64 S768x64 S32x64x64x768 where
  lhsContracting := [3]
  rhsContracting := [1]
  lhsNonContracting := [0, 1, 2]
  rhsNonContracting := [0]
  lhsBatch := []
  rhsBatch := []
  wf := dot_S32x64x64x64_S768x64_S32x64x64x768_3_1_012_0_n_n_wf

class Facts : Prop extends Facts₀ where

variable [Facts]
-- ==== Proof.Attn.lean ====
/-
  One attention window on the extended reals, and the whole result as ONE function of the five argument arrays.

  A window is 64 tokens of 768 features. Three affine maps give the queries, keys and values (64 features each):
  `lin X W b n d = (∑ i, X n i · W i d) + b d`. The scores are the queries' inner products with the keys, scaled:
  `score Q K c n m = (∑ d, Q n d · K m d) · c`. Each row of scores is turned into weights by the softmax taken
  exactly as both programs take it: the row's maximum (a fold of `max` from −∞, joined once more with −∞),
  `exp` of the difference, and the quotient by the row's sum. The weights average the values (`mix`), and a last
  affine map (`proj`) takes the 64 averaged features back to 768.

  The result array of shape [32, 64, 64, 768] holds, at (b, s, n, o), window (b, s)'s output at token n and feature
  o; the query, key and value maps are rows 0–63, 64–127 and 128–191 of the first weight matrix, read transposed.

  The one place where the two programs spell a different expression is the scale: a product with the float 1/8 on
  one side, a quotient by the square root of the float 64 on the other. On the extended reals these agree at every
  argument, the infinities included (`div_sqrt64`): √64 = 8, and a quotient by a nonzero real is the product with
  its reciprocal.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- −∞, as the f32 word both programs start their row maximum from. -/
abbrev negInf : EReal := Ideal.ofBits .f32 0xFF800000#32

/-- The float 1/8 the scores are multiplied by. -/
abbrev eighth : EReal := Ideal.ofBits .f32 0x3E000000#32

/-- An affine map of the features: row `n` of `X` against column `d` of `W`, plus the bias. -/
def lin {K D : Nat} (X : Fin 64 → Fin K → EReal) (W : Fin K → Fin D → EReal) (b : Fin D → EReal) (n : Fin 64) (d : Fin D) : EReal :=
  (∑ i : Fin K, X n i * W i d) + b d

/-- The scaled inner product of query `n` with key `m`. -/
def score (Q K : Fin 64 → Fin 64 → EReal) (c : EReal) (n m : Fin 64) : EReal :=
  (∑ d : Fin 64, Q n d * K m d) * c

/-- The maximum of row `n`, from −∞. -/
def rowMax (S : Fin 64 → Fin 64 → EReal) (n : Fin 64) : EReal :=
  max negInf ((Finset.univ : Finset (Fin 64)).fold max negInf (fun k => S n k))

/-- `exp` of a score less its row's maximum. -/
def expo (S : Fin 64 → Fin 64 → EReal) (n m : Fin 64) : EReal :=
  Ideal.exp (S n m - rowMax S n)

/-- The softmax weight of key `m` for query `n`. -/
def soft (S : Fin 64 → Fin 64 → EReal) (n m : Fin 64) : EReal :=
  Ideal.div (expo S n m) (∑ k : Fin 64, expo S n k)

/-- The values averaged by the weights. -/
def mix (A V : Fin 64 → Fin 64 → EReal) (n d : Fin 64) : EReal :=
  ∑ m : Fin 64, A n m * V m d

/-- One window: queries, keys, values; scores; softmax; average; output map. -/
def window (X : Fin 64 → Fin 768 → EReal) (Wq Wk Wv : Fin 768 → Fin 64 → EReal) (bq bk bv : Fin 64 → EReal)
    (Wo : Fin 64 → Fin 768 → EReal) (bo : Fin 768 → EReal) (c : EReal) : Fin 64 → Fin 768 → EReal :=
  lin (mix (soft (score (lin X Wq bq) (lin X Wk bk) c)) (lin X Wv bv)) Wo bo

/-! ## The argument arrays as a window's data -/

/-- Rows `off … off + 63` of the first weight matrix, transposed. -/
def wcols (off : Nat) (h : off + 64 ≤ 192) (W1 : (⟨2, ![192, 768]⟩ : Shape).Idx → EReal) (i : Fin 768) (d : Fin 64) : EReal :=
  W1 (ix2 (⟨off + d.val, by have := d.isLt; omega⟩ : Fin 192) i)

/-- Entries `off … off + 63` of the first bias. -/
def bcols (off : Nat) (h : off + 64 ≤ 192) (b1 : (⟨1, ![192]⟩ : Shape).Idx → EReal) (d : Fin 64) : EReal :=
  b1 (ix1 (⟨off + d.val, by have := d.isLt; omega⟩ : Fin 192))

/-- The second weight matrix, transposed. -/
def wout (W2 : (⟨2, ![768, 64]⟩ : Shape).Idx → EReal) (d : Fin 64) (o : Fin 768) : EReal := W2 (ix2 o d)

/-- The second bias. -/
def bout (b2 : (⟨1, ![768]⟩ : Shape).Idx → EReal) (o : Fin 768) : EReal := b2 (ix1 o)

/-- Window (b, s) of the input. -/
def xwin (x : (⟨4, ![32, 64, 64, 768]⟩ : Shape).Idx → EReal) (b : Fin 32) (s : Fin 64) (n : Fin 64) (i : Fin 768) : EReal :=
  x (ix4 b s n i)

/-- Window (b, s)'s output, from the five argument arrays. -/
def winOut (x : (⟨4, ![32, 64, 64, 768]⟩ : Shape).Idx → EReal) (W1 : (⟨2, ![192, 768]⟩ : Shape).Idx → EReal)
    (b1 : (⟨1, ![192]⟩ : Shape).Idx → EReal) (W2 : (⟨2, ![768, 64]⟩ : Shape).Idx → EReal)
    (b2 : (⟨1, ![768]⟩ : Shape).Idx → EReal) (b : Fin 32) (s : Fin 64) : Fin 64 → Fin 768 → EReal :=
  window (xwin x b s) (wcols 0 (by decide) W1) (wcols 64 (by decide) W1) (wcols 128 (by decide) W1)
    (bcols 0 (by decide) b1) (bcols 64 (by decide) b1) (bcols 128 (by decide) b1) (wout W2) (bout b2) eighth

/-- The whole result: at (b, s, n, o), window (b, s)'s output at token `n`, feature `o`. -/
def G (x : (⟨4, ![32, 64, 64, 768]⟩ : Shape).Idx → EReal) (W1 : (⟨2, ![192, 768]⟩ : Shape).Idx → EReal)
    (b1 : (⟨1, ![192]⟩ : Shape).Idx → EReal) (W2 : (⟨2, ![768, 64]⟩ : Shape).Idx → EReal)
    (b2 : (⟨1, ![768]⟩ : Shape).Idx → EReal) : (⟨4, ![32, 64, 64, 768]⟩ : Shape).Idx → EReal :=
  fun i => winOut x W1 b1 W2 b2 (i 0) (i 1) (i 2) (i 3)

theorem G_ix4 (x : (⟨4, ![32, 64, 64, 768]⟩ : Shape).Idx → EReal) (W1 : (⟨2, ![192, 768]⟩ : Shape).Idx → EReal)
    (b1 : (⟨1, ![192]⟩ : Shape).Idx → EReal) (W2 : (⟨2, ![768, 64]⟩ : Shape).Idx → EReal)
    (b2 : (⟨1, ![768]⟩ : Shape).Idx → EReal) (b : Fin 32) (s n : Fin 64) (o : Fin 768) :
    G x W1 b1 W2 b2 (ix4 b s n o) = winOut x W1 b1 W2 b2 b s n o := rfl

/-! ## The scale -/

/-- The float 64 is the real 64. -/
theorem ofBits_64 : Ideal.ofBits .f32 0x42800000#32 = ((64 : ℝ) : EReal) := by
  simp [Ideal.ofBits, Ideal.ieee, -EReal.coe_mul]; norm_num

/-- The float 1/8 is the real 1/8. -/
theorem eighth_eq : eighth = ((1 / 8 : ℝ) : EReal) := by
  simp [eighth, Ideal.ofBits, Ideal.ieee, -EReal.coe_mul]; norm_num

/-- Dividing by the square root of the float 64 is multiplying by the float 1/8, at every extended real. -/
theorem div_sqrt64 (s : EReal) : Ideal.div s (Ideal.sqrt (Ideal.ofBits .f32 0x42800000#32)) = s * eighth := by
  have h8 : Real.sqrt 64 = 8 := by
    rw [show (64 : ℝ) = 8 ^ 2 by norm_num]; exact Real.sqrt_sq (by norm_num)
  rw [ofBits_64, eighth_eq, Ideal.sqrt_coe, if_neg (by norm_num), h8, Ideal.div_coe (by norm_num : (8 : ℝ) ≠ 0)]

end Cert.Attn

end
-- ==== Proof.RefAttn.lean ====
/-
  The reference program, read one stage at a time at explicit coordinates, is the attention window of
  `Cert.Attn`: at (b, s, n, o) its result is window (b, s)'s output at token n and feature o.

  Every stage's value at an index is expressed through the previous stages' values at indices; the chain is
  closed from the inputs upward: the affine map into 192 features, its three slices (queries, keys, values),
  the scaled scores, the row maximum, the exponentials, their row sums, the quotients, the weighted average of
  the values and the last affine map.
-/
import proofs.«159999_j46394236731817_2_alg».proof.Proof.Gen.ReferenceIdeal.Read
import proofs.«159999_j46394236731817_2_alg».proof.Proof.Attn
import Idealize.ShloMosaic.PureOps.Reduce
import Idealize.ShloMosaic.PureOps.Ideal.Laws
import Idealize.ShloMosaic.Lib.ValueIdx

noncomputable section

namespace Cert.RefAttn

open Cert.ReferenceIdeal Cert.ReferenceIdeal.Gen Cert.ReferenceIdeal.Read Idealize.ShloMosaic Idealize.ShloMosaic.ValueIdx Cert.Attn

variable (x0 : (⟨S32x64x64x768, .f32⟩ : BufTy).Contents (Elt Ideal)) (x1 : (⟨S192x768, .f32⟩ : BufTy).Contents (Elt Ideal))
  (x2 : (⟨S192, .f32⟩ : BufTy).Contents (Elt Ideal)) (x3 : (⟨S768x64, .f32⟩ : BufTy).Contents (Elt Ideal))
  (x4 : (⟨S768, .f32⟩ : BufTy).Contents (Elt Ideal))

/-! ## The first affine map: 768 features to 192 -/

theorem lidx_v0 (b : Fin 32) (s n : Fin 64) (o : Fin 192) (k : Fin 768) :
    lidx_main_v0 (ix4 b s n o) k = ix4 b s n k :=
  funext fun a => by match a with | ⟨0, _⟩ => rfl | ⟨1, _⟩ => rfl | ⟨2, _⟩ => rfl | ⟨3, _⟩ => rfl

theorem ridx_v0 (b : Fin 32) (s n : Fin 64) (o : Fin 192) (k : Fin 768) :
    ridx_main_v0 (ix4 b s n o) k = ix2 o k :=
  funext fun a => by match a with | ⟨0, _⟩ => rfl | ⟨1, _⟩ => rfl

theorem idx_v1v2 (b : Fin 32) (s n : Fin 64) (o : Fin 192) :
    idx_main_v1 (idx_main_v2 (ix4 b s n o)) = ix1 o :=
  funext fun a => by match a with | ⟨0, _⟩ => rfl

/-- Stage 3 at (b, s, n, o): row n of window (b, s) against row o of the first weight matrix, plus the bias. -/
theorem v3_at (b : Fin 32) (s n : Fin 64) (o : Fin 192) :
    val_main_v3 (F := Ideal) x0 x1 x2 (ix4 b s n o)
      = (∑ i : Fin 768, x0 (ix4 b s n i) * x1 (ix2 o i)) + x2 (ix1 o) := by
  rw [val_main_v3_apply, val_main_v0_apply, val_main_v2_apply, val_main_v1_apply, Ideal.addf_def, idx_v1v2]
  refine congrArg (· + x2 (ix1 o)) (Finset.sum_congr rfl fun k _ => ?_)
  rw [lidx_v0, ridx_v0]

/-! ## Queries, keys and values: the three slices -/

/-- The queries of window (b, s). -/
abbrev qs (b : Fin 32) (s : Fin 64) : Fin 64 → Fin 64 → EReal :=
  lin (xwin x0 b s) (wcols 0 (by decide) x1) (bcols 0 (by decide) x2)

/-- The keys of window (b, s). -/
abbrev ks (b : Fin 32) (s : Fin 64) : Fin 64 → Fin 64 → EReal :=
  lin (xwin x0 b s) (wcols 64 (by decide) x1) (bcols 64 (by decide) x2)

/-- The values of window (b, s). -/
abbrev vs (b : Fin 32) (s : Fin 64) : Fin 64 → Fin 64 → EReal :=
  lin (xwin x0 b s) (wcols 128 (by decide) x1) (bcols 128 (by decide) x2)

/-- The scaled scores of window (b, s). -/
abbrev sc (b : Fin 32) (s : Fin 64) : Fin 64 → Fin 64 → EReal :=
  score (qs x0 x1 x2 b s) (ks x0 x1 x2 b s) eighth

theorem idx_v4 (b : Fin 32) (s n d : Fin 64) :
    idx_main_v4 (ix4 b s n d) = ix4 b s n (⟨0 + d.val, by have := d.isLt; omega⟩ : Fin 192) :=
  funext fun a => by
    match a with
    | ⟨0, _⟩ => rfl
    | ⟨1, _⟩ => rfl
    | ⟨2, _⟩ => rfl
    | ⟨3, _⟩ => exact Fin.ext (Nat.zero_add d.val).symm

theorem idx_v5 (b : Fin 32) (s n d : Fin 64) :
    idx_main_v5 (ix4 b s n d) = ix4 b s n (⟨64 + d.val, by have := d.isLt; omega⟩ : Fin 192) :=
  funext fun a => by match a with | ⟨0, _⟩ => rfl | ⟨1, _⟩ => rfl | ⟨2, _⟩ => rfl | ⟨3, _⟩ => rfl

theorem idx_v6 (b : Fin 32) (s n d : Fin 64) :
    idx_main_v6 (ix4 b s n d) = ix4 b s n (⟨128 + d.val, by have := d.isLt; omega⟩ : Fin 192) :=
  funext fun a => by match a with | ⟨0, _⟩ => rfl | ⟨1, _⟩ => rfl | ⟨2, _⟩ => rfl | ⟨3, _⟩ => rfl

/-- Stage 4 holds the queries. -/
theorem v4_at (b : Fin 32) (s n d : Fin 64) :
    val_main_v4 (F := Ideal) x0 x1 x2 (ix4 b s n d) = qs x0 x1 x2 b s n d := by
  rw [val_main_v4_apply, idx_v4, v3_at]; rfl

/-- Stage 5 holds the keys. -/
theorem v5_at (b : Fin 32) (s n d : Fin 64) :
    val_main_v5 (F := Ideal) x0 x1 x2 (ix4 b s n d) = ks x0 x1 x2 b s n d := by
  rw [val_main_v5_apply, idx_v5, v3_at]; rfl

/-- Stage 6 holds the values. -/
theorem v6_at (b : Fin 32) (s n d : Fin 64) :
    val_main_v6 (F := Ideal) x0 x1 x2 (ix4 b s n d) = vs x0 x1 x2 b s n d := by
  rw [val_main_v6_apply, idx_v6, v3_at]; rfl

/-! ## The scaled scores -/

theorem lidx_v7 (b : Fin 32) (s n m k : Fin 64) : lidx_main_v7 (ix4 b s n m) k = ix4 b s n k :=
  funext fun a => by match a with | ⟨0, _⟩ => rfl | ⟨1, _⟩ => rfl | ⟨2, _⟩ => rfl | ⟨3, _⟩ => rfl

theorem ridx_v7 (b : Fin 32) (s n m k : Fin 64) : ridx_main_v7 (ix4 b s n m) k = ix4 b s m k :=
  funext fun a => by match a with | ⟨0, _⟩ => rfl | ⟨1, _⟩ => rfl | ⟨2, _⟩ => rfl | ⟨3, _⟩ => rfl

/-- Stage 7: the inner product of query n with key m. -/
theorem v7_at (b : Fin 32) (s n m : Fin 64) :
    val_main_v7 (F := Ideal) x0 x1 x2 (ix4 b s n m)
      = ∑ d : Fin 64, qs x0 x1 x2 b s n d * ks x0 x1 x2 b s m d := by
  rw [val_main_v7_apply]
  refine Finset.sum_congr rfl fun k _ => ?_
  rw [lidx_v7, ridx_v7, v4_at, v5_at]

/-- Stage 10: the quotient by the square root of the float 64 is the product with the float 1/8. -/
theorem v10_at (b : Fin 32) (s n m : Fin 64) :
    val_main_v10 (F := Ideal) x0 x1 x2 (ix4 b s n m) = sc x0 x1 x2 b s n m := by
  rw [val_main_v10_apply, val_main_v9_apply, val_main_v8_apply, val_main_cst_apply, Ideal.hostDivf_def,
    Ideal.hostUnary_sqrt_def, Ideal.ofBits_def, div_sqrt64, v7_at]
  rfl

/-! ## The row maximum -/

/-- The reduced index (b, s, n) with coordinate k put back on the last axis is (b, s, n, k). -/
theorem lift_d3 (h : S32x64x64x64.Reduces [3] S32x64x64) (b : Fin 32) (s n : Fin 64) (k : Fin (S32x64x64x64.size 3)) :
    h.lift (ix3 b s n) k = ix4 b s n (⟨k.val, k.isLt⟩ : Fin 64) := by
  funext c; apply Fin.ext
  fin_cases c <;> rfl

/-- Stage 11: the fold of `max` from −∞ over row n of the scores. A reduction over one axis with a commutative,
    associative body is the fold over that axis's coordinates, whatever order the elements are visited in. -/
theorem v11_at (b : Fin 32) (s n : Fin 64) :
    val_main_v11 (F := Ideal) x0 x1 x2 (ix3 b s n)
      = (Finset.univ : Finset (Fin 64)).fold max negInf (fun k => sc x0 x1 x2 b s n k) := by
  have h : S32x64x64x64.Reduces [3] S32x64x64 := by decide
  have key := Host.reduce_eq_fold_single (FloatOps.maximumf (F := Ideal) (φ := .f32)) (val_main_v10 (F := Ideal) x0 x1 x2)
    (val_main_cst_0 (F := Ideal)) reducesTo_S32x64x64x64_S32x64x64_d3 h h_S_ (ix3 b s n)
  refine Eq.trans key ?_
  have hf : (val_main_v10 (F := Ideal) x0 x1 x2 ∘ h.lift (ix3 b s n)) = fun k : Fin 64 => sc x0 x1 x2 b s n k :=
    funext fun k => (congrArg (val_main_v10 (F := Ideal) x0 x1 x2) (lift_d3 h b s n k)).trans (v10_at x0 x1 x2 b s n _)
  exact congrArg (fun f => Finset.fold max negInf f (Finset.univ : Finset (Fin 64))) hf

/-- Stage 13: the row maximum, joined once more with −∞. -/
theorem v13_at (b : Fin 32) (s n : Fin 64) :
    val_main_v13 (F := Ideal) x0 x1 x2 (ix3 b s n) = rowMax (sc x0 x1 x2 b s) n := by
  rw [val_main_v13_apply, val_main_v12_apply, val_main_cst_1_apply, v11_at, Ideal.maximumf_def, Ideal.ofBits_def]
  rfl

/-! ## The exponentials, their row sums, and the weights -/

theorem idx_v14v15 (b : Fin 32) (s n m : Fin 64) : idx_main_v14 (idx_main_v15 (ix4 b s n m)) = ix3 b s n :=
  funext fun a => by match a with | ⟨0, _⟩ => rfl | ⟨1, _⟩ => rfl | ⟨2, _⟩ => rfl

/-- Stage 17: `exp` of a score less its row's maximum. -/
theorem v17_at (b : Fin 32) (s n m : Fin 64) :
    val_main_v17 (F := Ideal) x0 x1 x2 (ix4 b s n m) = expo (sc x0 x1 x2 b s) n m := by
  rw [val_main_v17_apply, val_main_v16_apply, val_main_v15_apply, val_main_v14_apply, idx_v14v15, v13_at, v10_at,
    Ideal.hostUnary_exp_def, Ideal.subf_def]
  rfl

theorem idx_v18 (b : Fin 32) (s n k : Fin 64) : idx_main_v18 (ix3 b s n) k = ix4 b s n k :=
  funext fun a => by match a with | ⟨0, _⟩ => rfl | ⟨1, _⟩ => rfl | ⟨2, _⟩ => rfl | ⟨3, _⟩ => rfl

/-- Stage 18: the sum of row n of the exponentials (the sum starts from the float zero, which is 0). -/
theorem v18_at (b : Fin 32) (s n : Fin 64) :
    val_main_v18 (F := Ideal) x0 x1 x2 (ix3 b s n) = ∑ k : Fin 64, expo (sc x0 x1 x2 b s) n k := by
  rw [val_main_v18_apply, val_main_cst_2_apply, Ideal.ofBits_def, Ideal.ofBits_zero_f32, zero_add]
  refine Finset.sum_congr rfl fun k _ => ?_
  rw [idx_v18, v17_at]

theorem idx_v19v20 (b : Fin 32) (s n m : Fin 64) : idx_main_v19 (idx_main_v20 (ix4 b s n m)) = ix3 b s n :=
  funext fun a => by match a with | ⟨0, _⟩ => rfl | ⟨1, _⟩ => rfl | ⟨2, _⟩ => rfl

/-- Stage 21: the softmax weight of key m for query n. -/
theorem v21_at (b : Fin 32) (s n m : Fin 64) :
    val_main_v21 (F := Ideal) x0 x1 x2 (ix4 b s n m) = soft (sc x0 x1 x2 b s) n m := by
  rw [val_main_v21_apply, val_main_v20_apply, val_main_v19_apply, idx_v19v20, v18_at, v17_at, Ideal.hostDivf_def]
  rfl

/-! ## The weighted average of the values and the output map -/

theorem lidx_v22 (b : Fin 32) (s n d k : Fin 64) : lidx_main_v22 (ix4 b s n d) k = ix4 b s n k :=
  funext fun a => by match a with | ⟨0, _⟩ => rfl | ⟨1, _⟩ => rfl | ⟨2, _⟩ => rfl | ⟨3, _⟩ => rfl

theorem ridx_v22 (b : Fin 32) (s n d k : Fin 64) : ridx_main_v22 (ix4 b s n d) k = ix4 b s k d :=
  funext fun a => by match a with | ⟨0, _⟩ => rfl | ⟨1, _⟩ => rfl | ⟨2, _⟩ => rfl | ⟨3, _⟩ => rfl

/-- Stage 22: the values averaged by the weights. -/
theorem v22_at (b : Fin 32) (s n d : Fin 64) :
    val_main_v22 (F := Ideal) x0 x1 x2 (ix4 b s n d) = mix (soft (sc x0 x1 x2 b s)) (vs x0 x1 x2 b s) n d := by
  rw [val_main_v22_apply]
  refine Finset.sum_congr rfl fun k _ => ?_
  rw [lidx_v22, ridx_v22, v21_at, v6_at]

theorem lidx_v23 (b : Fin 32) (s n : Fin 64) (o : Fin 768) (k : Fin 64) : lidx_main_v23 (ix4 b s n o) k = ix4 b s n k :=
  funext fun a => by match a with | ⟨0, _⟩ => rfl | ⟨1, _⟩ => rfl | ⟨2, _⟩ => rfl | ⟨3, _⟩ => rfl

theorem ridx_v23 (b : Fin 32) (s n : Fin 64) (o : Fin 768) (k : Fin 64) : ridx_main_v23 (ix4 b s n o) k = ix2 o k :=
  funext fun a => by match a with | ⟨0, _⟩ => rfl | ⟨1, _⟩ => rfl

theorem idx_v24v25 (b : Fin 32) (s n : Fin 64) (o : Fin 768) : idx_main_v24 (idx_main_v25 (ix4 b s n o)) = ix1 o :=
  funext fun a => by match a with | ⟨0, _⟩ => rfl

/-- Stage 26 at (b, s, n, o) is window (b, s)'s output at token n and feature o. -/
theorem v26_at (b : Fin 32) (s n : Fin 64) (o : Fin 768) :
    val_main_v26 (F := Ideal) x0 x1 x2 x3 x4 (ix4 b s n o) = winOut x0 x1 x2 x3 x4 b s n o := by
  rw [val_main_v26_apply, val_main_v23_apply, val_main_v25_apply, val_main_v24_apply, idx_v24v25, Ideal.addf_def]
  show _ = (∑ k : Fin 64, mix (soft (sc x0 x1 x2 b s)) (vs x0 x1 x2 b s) n k * x3 (ix2 o k)) + x4 (ix1 o)
  refine congrArg (· + x4 (ix1 o)) (Finset.sum_congr rfl fun k _ => ?_)
  rw [lidx_v23, ridx_v23, v22_at]

/-- The reference program computes `G`. -/
theorem ref_eq : val_main_v26 (F := Ideal) x0 x1 x2 x3 x4 = G x0 x1 x2 x3 x4 := by
  funext i
  obtain ⟨b, s, n, o, rfl⟩ : ∃ b s n o, i = ix4 b s n o := ⟨i 0, i 1, i 2, i 3, eq_ix4 i⟩
  rw [v26_at, G_ix4]

end Cert.RefAttn

end
-- ==== Proof.BodyAttn.lean ====
/-
  The attention body on one block, read at an index.

  A block is 32 windows of 64 tokens with 768 features. The body flattens it to 2048 rows (row 64·w + n is token n of
  window w), takes three affine maps of the rows (queries, keys, values: 64 features each), reshapes them back to
  [32, 64, 64], and then works window by window: the scores are the queries' inner products with the keys times the
  float 1/8; each row of scores gives its maximum (a fold of `max` from −∞, joined once more with −∞), the `exp` of
  the differences, and their quotient by the row's sum; these weights average the values; a last affine map takes the
  64 averaged features of every row back to 768, and the rows are reshaped to [32, 64, 768].

  On the extended reals every change of float format is the identity and every product accumulated into zeros is a
  plain finite sum, so at (w, n, o) the stored value is exactly `Cert.Attn.window` of window w's rows, the three
  weight matrices and biases, the output matrix and bias, and the float 1/8, at (n, o). The proof goes bottom-up:
  the flattening (`pay2_at`), the four contractions as sums over one coordinate (`mm_in_at`, `mm_qk_at`, `mm_pv_at`,
  `mm_out_at`), one affine map (`proj_at`), the values (`pay3_at`), the scores (`pay4_at`), the row maxima
  (`pay5_at`), the softmax weights (`weights_at`, `weights_pay_at`), the stored value (`pay1_at`), and the block's
  result (`body_eq`). The only index arithmetic is that a reshape keeps the row-major position:
  (64·w + n)·D + d = ((w·64 + n)·D + d).
-/
import proofs.«159999_j46394236731817_2_alg».proof.Proof.Gen.KernelIdeal.Frame
import proofs.«159999_j46394236731817_2_alg».proof.Proof.Attn
import Idealize.ShloMosaic.Lib.ValueIdx
import Idealize.ShloMosaic.Lib.Pipeline.Value
import Idealize.ShloMosaic.PureOps.Ideal.Laws

noncomputable section

namespace Cert.BodyAttn

open Cert.KernelIdeal Cert.KernelIdeal.Gen
open Idealize.ShloMosaic Idealize.ShloMosaic.ValueIdx

/-! ## The flattened block -/

/-- Row `64·w + n` of the flattened block. -/
def row (w : Fin 32) (n : Fin 64) : Fin 2048 := ⟨64 * w.val + n.val, by have := w.isLt; have := n.isLt; omega⟩

/-- Row 64·w + n of the flattened block is token n of window w. -/
theorem pay2_at (x0 : Vec Ideal S32x64x768 .f32) (w : Fin 32) (n : Fin 64) (i : Fin 768) :
    k0_pay2 (F := Ideal) x0 (ix2 (row w n) i) = x0 (ix3 w n i) := by
  unfold k0_pay2
  show shapeCast S2048x768 (shapeCast S32x64x768 x0 Facts₀.shapeCasts_S32x64x768_S32x64x768) Facts₀.shapeCasts_S32x64x768_S2048x768 (ix2 (row w n) i) = _
  rw [shapeCast_self]
  refine shapeCast_apply x0 _ _ (ix3 w n i) ?_
  rw [Shape.rowMajor_val_three, Shape.rowMajor_val_two]
  show ((w.val * 64 + n.val) * 768 + i.val) = (64 * w.val + n.val) * 768 + i.val
  omega

/-! ## The four contractions, read at an index

Each product accumulates into zeros, so at an index it is the sum, over the one contracted coordinate, of the
operands' products; the operands' indices are the result's coordinates with the contracted one put in its place. -/

theorem lhs_in_0 (i : S2048x64.Idx) (q : dot_S2048x768_S768x64_S2048x64_1_0_0_1_n_n.contr.Idx) :
    (dot_S2048x768_S768x64_S2048x64_1_0_0_1_n_n.lhsIdx i q 0).val = (i 0).val := by
  unfold DotDims.lhsIdx
  rw [dif_neg (show ¬(0 : Fin S2048x768.rank) ∈ dot_S2048x768_S768x64_S2048x64_1_0_0_1_n_n.lhsBatch by decide), dif_pos (show (0 : Fin S2048x768.rank) ∈ dot_S2048x768_S768x64_S2048x64_1_0_0_1_n_n.lhsNonContracting by decide)]
  rfl
theorem lhs_in_1 (i : S2048x64.Idx) (q : dot_S2048x768_S768x64_S2048x64_1_0_0_1_n_n.contr.Idx) :
    (dot_S2048x768_S768x64_S2048x64_1_0_0_1_n_n.lhsIdx i q 1).val = (q ⟨0, by decide⟩).val :=
  dot_S2048x768_S768x64_S2048x64_1_0_0_1_n_n.lhsIdx_val_of_single rfl i q
theorem rhs_in_0 (i : S2048x64.Idx) (q : dot_S2048x768_S768x64_S2048x64_1_0_0_1_n_n.contr.Idx) :
    (dot_S2048x768_S768x64_S2048x64_1_0_0_1_n_n.rhsIdx i q 0).val = (q ⟨0, by decide⟩).val :=
  dot_S2048x768_S768x64_S2048x64_1_0_0_1_n_n.rhsIdx_val_of_single rfl i q
theorem rhs_in_1 (i : S2048x64.Idx) (q : dot_S2048x768_S768x64_S2048x64_1_0_0_1_n_n.contr.Idx) :
    (dot_S2048x768_S768x64_S2048x64_1_0_0_1_n_n.rhsIdx i q 1).val = (i 1).val := by
  unfold DotDims.rhsIdx
  rw [dif_neg (show ¬(1 : Fin S768x64.rank) ∈ dot_S2048x768_S768x64_S2048x64_1_0_0_1_n_n.rhsBatch by decide), dif_pos (show (1 : Fin S768x64.rank) ∈ dot_S2048x768_S768x64_S2048x64_1_0_0_1_n_n.rhsNonContracting by decide)]
  rfl

/-- A [2048, 768] array against a [768, 64] one: at (r, d) the sum over the 768 shared coordinates. -/
theorem mm_in_at (Y : FVec Ideal S2048x768 .bf16) (W : FVec Ideal S768x64 .bf16) (r : Fin 2048) (d : Fin 64) :
    matmul dot_S2048x768_S768x64_S2048x64_1_0_0_1_n_n none Y W (constant S2048x64 .f32 0x00000000#32) (ix2 r d)
      = ∑ i : Fin 768, Y (ix2 r i) * W (ix2 i d) := by
  refine (Ideal.matmul_constant_zero_apply dot_S2048x768_S768x64_S2048x64_1_0_0_1_n_n none Y W (ix2 r d)).trans ?_
  rw [← Equiv.sum_comp (ValueIdx.contrEquiv1 dot_S2048x768_S768x64_S2048x64_1_0_0_1_n_n 768 rfl rfl).symm]
  refine Finset.sum_congr rfl fun k _ => ?_
  have hk := ValueIdx.contrEquiv1_symm_val dot_S2048x768_S768x64_S2048x64_1_0_0_1_n_n 768 rfl rfl k
  have el : dot_S2048x768_S768x64_S2048x64_1_0_0_1_n_n.lhsIdx (ix2 r d) ((ValueIdx.contrEquiv1 dot_S2048x768_S768x64_S2048x64_1_0_0_1_n_n 768 rfl rfl).symm k) = ix2 r k := funext fun a => Fin.ext (by
    match a with
    | ⟨0, _⟩ => exact lhs_in_0 _ _
    | ⟨1, _⟩ => exact (lhs_in_1 _ _).trans hk)
  have er : dot_S2048x768_S768x64_S2048x64_1_0_0_1_n_n.rhsIdx (ix2 r d) ((ValueIdx.contrEquiv1 dot_S2048x768_S768x64_S2048x64_1_0_0_1_n_n 768 rfl rfl).symm k) = ix2 k d := funext fun a => Fin.ext (by
    match a with
    | ⟨0, _⟩ => exact (rhs_in_0 _ _).trans hk
    | ⟨1, _⟩ => exact rhs_in_1 _ _)
  rw [el, er]
theorem lhs_qk_0 (i : S32x64x64.Idx) (q : dot_S32x64x64_S32x64x64_S32x64x64_2_2_1_1_0_0.contr.Idx) :
    (dot_S32x64x64_S32x64x64_S32x64x64_2_2_1_1_0_0.lhsIdx i q 0).val = (i 0).val := by
  unfold DotDims.lhsIdx
  rw [dif_pos (show (0 : Fin S32x64x64.rank) ∈ dot_S32x64x64_S32x64x64_S32x64x64_2_2_1_1_0_0.lhsBatch by decide)]
  rfl
theorem lhs_qk_1 (i : S32x64x64.Idx) (q : dot_S32x64x64_S32x64x64_S32x64x64_2_2_1_1_0_0.contr.Idx) :
    (dot_S32x64x64_S32x64x64_S32x64x64_2_2_1_1_0_0.lhsIdx i q 1).val = (i 1).val := by
  unfold DotDims.lhsIdx
  rw [dif_neg (show ¬(1 : Fin S32x64x64.rank) ∈ dot_S32x64x64_S32x64x64_S32x64x64_2_2_1_1_0_0.lhsBatch by decide), dif_pos (show (1 : Fin S32x64x64.rank) ∈ dot_S32x64x64_S32x64x64_S32x64x64_2_2_1_1_0_0.lhsNonContracting by decide)]
  rfl
theorem lhs_qk_2 (i : S32x64x64.Idx) (q : dot_S32x64x64_S32x64x64_S32x64x64_2_2_1_1_0_0.contr.Idx) :
    (dot_S32x64x64_S32x64x64_S32x64x64_2_2_1_1_0_0.lhsIdx i q 2).val = (q ⟨0, by decide⟩).val :=
  dot_S32x64x64_S32x64x64_S32x64x64_2_2_1_1_0_0.lhsIdx_val_of_single rfl i q
theorem rhs_qk_0 (i : S32x64x64.Idx) (q : dot_S32x64x64_S32x64x64_S32x64x64_2_2_1_1_0_0.contr.Idx) :
    (dot_S32x64x64_S32x64x64_S32x64x64_2_2_1_1_0_0.rhsIdx i q 0).val = (i 0).val := by
  unfold DotDims.rhsIdx
  rw [dif_pos (show (0 : Fin S32x64x64.rank) ∈ dot_S32x64x64_S32x64x64_S32x64x64_2_2_1_1_0_0.rhsBatch by decide)]
  rfl
theorem rhs_qk_1 (i : S32x64x64.Idx) (q : dot_S32x64x64_S32x64x64_S32x64x64_2_2_1_1_0_0.contr.Idx) :
    (dot_S32x64x64_S32x64x64_S32x64x64_2_2_1_1_0_0.rhsIdx i q 1).val = (i 2).val := by
  unfold DotDims.rhsIdx
  rw [dif_neg (show ¬(1 : Fin S32x64x64.rank) ∈ dot_S32x64x64_S32x64x64_S32x64x64_2_2_1_1_0_0.rhsBatch by decide), dif_pos (show (1 : Fin S32x64x64.rank) ∈ dot_S32x64x64_S32x64x64_S32x64x64_2_2_1_1_0_0.rhsNonContracting by decide)]
  rfl
theorem rhs_qk_2 (i : S32x64x64.Idx) (q : dot_S32x64x64_S32x64x64_S32x64x64_2_2_1_1_0_0.contr.Idx) :
    (dot_S32x64x64_S32x64x64_S32x64x64_2_2_1_1_0_0.rhsIdx i q 2).val = (q ⟨0, by decide⟩).val :=
  dot_S32x64x64_S32x64x64_S32x64x64_2_2_1_1_0_0.rhsIdx_val_of_single rfl i q

/-- Window by window, rows against rows: at (w, n, m) the sum over the last coordinate of both operands. -/
theorem mm_qk_at (A B : FVec Ideal S32x64x64 .bf16) (w : Fin 32) (n c : Fin 64) :
    matmul dot_S32x64x64_S32x64x64_S32x64x64_2_2_1_1_0_0 none A B (constant S32x64x64 .f32 0x00000000#32) (ix3 w n c)
      = ∑ k : Fin 64, A (ix3 w n k) * B (ix3 w c k) := by
  refine (Ideal.matmul_constant_zero_apply dot_S32x64x64_S32x64x64_S32x64x64_2_2_1_1_0_0 none A B (ix3 w n c)).trans ?_
  rw [← Equiv.sum_comp (ValueIdx.contrEquiv1 dot_S32x64x64_S32x64x64_S32x64x64_2_2_1_1_0_0 64 rfl rfl).symm]
  refine Finset.sum_congr rfl fun k _ => ?_
  have hk := ValueIdx.contrEquiv1_symm_val dot_S32x64x64_S32x64x64_S32x64x64_2_2_1_1_0_0 64 rfl rfl k
  have el : dot_S32x64x64_S32x64x64_S32x64x64_2_2_1_1_0_0.lhsIdx (ix3 w n c) ((ValueIdx.contrEquiv1 dot_S32x64x64_S32x64x64_S32x64x64_2_2_1_1_0_0 64 rfl rfl).symm k) = ix3 w n k := funext fun a => Fin.ext (by
    match a with
    | ⟨0, _⟩ => exact lhs_qk_0 _ _
    | ⟨1, _⟩ => exact lhs_qk_1 _ _
    | ⟨2, _⟩ => exact (lhs_qk_2 _ _).trans hk)
  have er : dot_S32x64x64_S32x64x64_S32x64x64_2_2_1_1_0_0.rhsIdx (ix3 w n c) ((ValueIdx.contrEquiv1 dot_S32x64x64_S32x64x64_S32x64x64_2_2_1_1_0_0 64 rfl rfl).symm k) = ix3 w c k := funext fun a => Fin.ext (by
    match a with
    | ⟨0, _⟩ => exact rhs_qk_0 _ _
    | ⟨1, _⟩ => exact rhs_qk_1 _ _
    | ⟨2, _⟩ => exact (rhs_qk_2 _ _).trans hk)
  rw [el, er]
theorem lhs_pv_0 (i : S32x64x64.Idx) (q : dot_S32x64x64_S32x64x64_S32x64x64_2_1_1_2_0_0.contr.Idx) :
    (dot_S32x64x64_S32x64x64_S32x64x64_2_1_1_2_0_0.lhsIdx i q 0).val = (i 0).val := by
  unfold DotDims.lhsIdx
  rw [dif_pos (show (0 : Fin S32x64x64.rank) ∈ dot_S32x64x64_S32x64x64_S32x64x64_2_1_1_2_0_0.lhsBatch by decide)]
  rfl
theorem lhs_pv_1 (i : S32x64x64.Idx) (q : dot_S32x64x64_S32x64x64_S32x64x64_2_1_1_2_0_0.contr.Idx) :
    (dot_S32x64x64_S32x64x64_S32x64x64_2_1_1_2_0_0.lhsIdx i q 1).val = (i 1).val := by
  unfold DotDims.lhsIdx
  rw [dif_neg (show ¬(1 : Fin S32x64x64.rank) ∈ dot_S32x64x64_S32x64x64_S32x64x64_2_1_1_2_0_0.lhsBatch by decide), dif_pos (show (1 : Fin S32x64x64.rank) ∈ dot_S32x64x64_S32x64x64_S32x64x64_2_1_1_2_0_0.lhsNonContracting by decide)]
  rfl
theorem lhs_pv_2 (i : S32x64x64.Idx) (q : dot_S32x64x64_S32x64x64_S32x64x64_2_1_1_2_0_0.contr.Idx) :
    (dot_S32x64x64_S32x64x64_S32x64x64_2_1_1_2_0_0.lhsIdx i q 2).val = (q ⟨0, by decide⟩).val :=
  dot_S32x64x64_S32x64x64_S32x64x64_2_1_1_2_0_0.lhsIdx_val_of_single rfl i q
theorem rhs_pv_0 (i : S32x64x64.Idx) (q : dot_S32x64x64_S32x64x64_S32x64x64_2_1_1_2_0_0.contr.Idx) :
    (dot_S32x64x64_S32x64x64_S32x64x64_2_1_1_2_0_0.rhsIdx i q 0).val = (i 0).val := by
  unfold DotDims.rhsIdx
  rw [dif_pos (show (0 : Fin S32x64x64.rank) ∈ dot_S32x64x64_S32x64x64_S32x64x64_2_1_1_2_0_0.rhsBatch by decide)]
  rfl
theorem rhs_pv_1 (i : S32x64x64.Idx) (q : dot_S32x64x64_S32x64x64_S32x64x64_2_1_1_2_0_0.contr.Idx) :
    (dot_S32x64x64_S32x64x64_S32x64x64_2_1_1_2_0_0.rhsIdx i q 1).val = (q ⟨0, by decide⟩).val :=
  dot_S32x64x64_S32x64x64_S32x64x64_2_1_1_2_0_0.rhsIdx_val_of_single rfl i q
theorem rhs_pv_2 (i : S32x64x64.Idx) (q : dot_S32x64x64_S32x64x64_S32x64x64_2_1_1_2_0_0.contr.Idx) :
    (dot_S32x64x64_S32x64x64_S32x64x64_2_1_1_2_0_0.rhsIdx i q 2).val = (i 2).val := by
  unfold DotDims.rhsIdx
  rw [dif_neg (show ¬(2 : Fin S32x64x64.rank) ∈ dot_S32x64x64_S32x64x64_S32x64x64_2_1_1_2_0_0.rhsBatch by decide), dif_pos (show (2 : Fin S32x64x64.rank) ∈ dot_S32x64x64_S32x64x64_S32x64x64_2_1_1_2_0_0.rhsNonContracting by decide)]
  rfl

/-- Window by window, rows against columns: at (w, n, d) the sum over the left operand's last coordinate, the
    right operand's middle one. -/
theorem mm_pv_at (A B : FVec Ideal S32x64x64 .bf16) (w : Fin 32) (n c : Fin 64) :
    matmul dot_S32x64x64_S32x64x64_S32x64x64_2_1_1_2_0_0 none A B (constant S32x64x64 .f32 0x00000000#32) (ix3 w n c)
      = ∑ k : Fin 64, A (ix3 w n k) * B (ix3 w k c) := by
  refine (Ideal.matmul_constant_zero_apply dot_S32x64x64_S32x64x64_S32x64x64_2_1_1_2_0_0 none A B (ix3 w n c)).trans ?_
  rw [← Equiv.sum_comp (ValueIdx.contrEquiv1 dot_S32x64x64_S32x64x64_S32x64x64_2_1_1_2_0_0 64 rfl rfl).symm]
  refine Finset.sum_congr rfl fun k _ => ?_
  have hk := ValueIdx.contrEquiv1_symm_val dot_S32x64x64_S32x64x64_S32x64x64_2_1_1_2_0_0 64 rfl rfl k
  have el : dot_S32x64x64_S32x64x64_S32x64x64_2_1_1_2_0_0.lhsIdx (ix3 w n c) ((ValueIdx.contrEquiv1 dot_S32x64x64_S32x64x64_S32x64x64_2_1_1_2_0_0 64 rfl rfl).symm k) = ix3 w n k := funext fun a => Fin.ext (by
    match a with
    | ⟨0, _⟩ => exact lhs_pv_0 _ _
    | ⟨1, _⟩ => exact lhs_pv_1 _ _
    | ⟨2, _⟩ => exact (lhs_pv_2 _ _).trans hk)
  have er : dot_S32x64x64_S32x64x64_S32x64x64_2_1_1_2_0_0.rhsIdx (ix3 w n c) ((ValueIdx.contrEquiv1 dot_S32x64x64_S32x64x64_S32x64x64_2_1_1_2_0_0 64 rfl rfl).symm k) = ix3 w k c := funext fun a => Fin.ext (by
    match a with
    | ⟨0, _⟩ => exact rhs_pv_0 _ _
    | ⟨1, _⟩ => exact (rhs_pv_1 _ _).trans hk
    | ⟨2, _⟩ => exact rhs_pv_2 _ _)
  rw [el, er]
theorem lhs_out_0 (i : S2048x768.Idx) (q : dot_S2048x64_S64x768_S2048x768_1_0_0_1_n_n.contr.Idx) :
    (dot_S2048x64_S64x768_S2048x768_1_0_0_1_n_n.lhsIdx i q 0).val = (i 0).val := by
  unfold DotDims.lhsIdx
  rw [dif_neg (show ¬(0 : Fin S2048x64.rank) ∈ dot_S2048x64_S64x768_S2048x768_1_0_0_1_n_n.lhsBatch by decide), dif_pos (show (0 : Fin S2048x64.rank) ∈ dot_S2048x64_S64x768_S2048x768_1_0_0_1_n_n.lhsNonContracting by decide)]
  rfl
theorem lhs_out_1 (i : S2048x768.Idx) (q : dot_S2048x64_S64x768_S2048x768_1_0_0_1_n_n.contr.Idx) :
    (dot_S2048x64_S64x768_S2048x768_1_0_0_1_n_n.lhsIdx i q 1).val = (q ⟨0, by decide⟩).val :=
  dot_S2048x64_S64x768_S2048x768_1_0_0_1_n_n.lhsIdx_val_of_single rfl i q
theorem rhs_out_0 (i : S2048x768.Idx) (q : dot_S2048x64_S64x768_S2048x768_1_0_0_1_n_n.contr.Idx) :
    (dot_S2048x64_S64x768_S2048x768_1_0_0_1_n_n.rhsIdx i q 0).val = (q ⟨0, by decide⟩).val :=
  dot_S2048x64_S64x768_S2048x768_1_0_0_1_n_n.rhsIdx_val_of_single rfl i q
theorem rhs_out_1 (i : S2048x768.Idx) (q : dot_S2048x64_S64x768_S2048x768_1_0_0_1_n_n.contr.Idx) :
    (dot_S2048x64_S64x768_S2048x768_1_0_0_1_n_n.rhsIdx i q 1).val = (i 1).val := by
  unfold DotDims.rhsIdx
  rw [dif_neg (show ¬(1 : Fin S64x768.rank) ∈ dot_S2048x64_S64x768_S2048x768_1_0_0_1_n_n.rhsBatch by decide), dif_pos (show (1 : Fin S64x768.rank) ∈ dot_S2048x64_S64x768_S2048x768_1_0_0_1_n_n.rhsNonContracting by decide)]
  rfl

/-- A [2048, 64] array against a [64, 768] one: at (r, o) the sum over the 64 shared coordinates. -/
theorem mm_out_at (Y : FVec Ideal S2048x64 .bf16) (W : FVec Ideal S64x768 .bf16) (r : Fin 2048) (o : Fin 768) :
    matmul dot_S2048x64_S64x768_S2048x768_1_0_0_1_n_n none Y W (constant S2048x768 .f32 0x00000000#32) (ix2 r o)
      = ∑ k : Fin 64, Y (ix2 r k) * W (ix2 k o) := by
  refine (Ideal.matmul_constant_zero_apply dot_S2048x64_S64x768_S2048x768_1_0_0_1_n_n none Y W (ix2 r o)).trans ?_
  rw [← Equiv.sum_comp (ValueIdx.contrEquiv1 dot_S2048x64_S64x768_S2048x768_1_0_0_1_n_n 64 rfl rfl).symm]
  refine Finset.sum_congr rfl fun k _ => ?_
  have hk := ValueIdx.contrEquiv1_symm_val dot_S2048x64_S64x768_S2048x768_1_0_0_1_n_n 64 rfl rfl k
  have el : dot_S2048x64_S64x768_S2048x768_1_0_0_1_n_n.lhsIdx (ix2 r o) ((ValueIdx.contrEquiv1 dot_S2048x64_S64x768_S2048x768_1_0_0_1_n_n 64 rfl rfl).symm k) = ix2 r k := funext fun a => Fin.ext (by
    match a with
    | ⟨0, _⟩ => exact lhs_out_0 _ _
    | ⟨1, _⟩ => exact (lhs_out_1 _ _).trans hk)
  have er : dot_S2048x64_S64x768_S2048x768_1_0_0_1_n_n.rhsIdx (ix2 r o) ((ValueIdx.contrEquiv1 dot_S2048x64_S64x768_S2048x768_1_0_0_1_n_n 64 rfl rfl).symm k) = ix2 k o := funext fun a => Fin.ext (by
    match a with
    | ⟨0, _⟩ => exact (rhs_out_0 _ _).trans hk
    | ⟨1, _⟩ => exact rhs_out_1 _ _)
  rw [el, er]

/-! ## The affine maps of the flattened block -/

/-- One affine map as the body spells it: the product into zeros plus the bias broadcast over the rows, reshaped
    [2048, 64] → [32, 64, 64]. -/
def proj (Y : FVec Ideal S2048x768 .bf16) (W : Vec Ideal S768x64 .f32) (b : Vec Ideal S1x64 .f32) : FVec Ideal S32x64x64 .f32 :=
  shapeCast S32x64x64
    (addf (matmul dot_S2048x768_S768x64_S2048x64_1_0_0_1_n_n none Y (truncf .bf16 (shapeCast S768x64 W Facts₀.shapeCasts_S768x64_S768x64) Facts₀.bitsLt_bf16_f32) (constant S2048x64 .f32 0x00000000#32))
      (broadcastTo S2048x64 (shapeCast S1x64 b Facts₀.shapeCasts_S1x64_S1x64) Facts₀.broadcasts_S1x64_S2048x64))
    Facts₀.shapeCasts_S2048x64_S32x64x64

/-- At (w, n, d) it is row 64·w + n of `Y` against column d of `W`, plus `b d`. -/
theorem proj_at (Y : FVec Ideal S2048x768 .bf16) (W : Vec Ideal S768x64 .f32) (b : Vec Ideal S1x64 .f32) (w : Fin 32) (n d : Fin 64) :
    proj Y W b (ix3 w n d) = (∑ i : Fin 768, Y (ix2 (row w n) i) * W (ix2 i d)) + b (ix2 (0 : Fin 1) d) := by
  unfold proj
  rw [shapeCast_self, shapeCast_self]
  refine (shapeCast_apply _ _ (ix3 w n d) (ix2 (row w n) d) ?_).trans ?_
  · rw [Shape.rowMajor_val_three, Shape.rowMajor_val_two]
    show (64 * w.val + n.val) * 64 + d.val = (w.val * 64 + n.val) * 64 + d.val
    omega
  rw [addf_apply, mm_in_at]
  refine congrArg₂ (· + ·) rfl ?_
  refine broadcastTo_apply b _ (ix2 (row w n) d) (ix2 0 d) ?_
  intro a
  match a with
  | ⟨0, _⟩ => rfl
  | ⟨1, _⟩ => rfl

/-- On the block itself: the affine map `lin` of window `w`. -/
theorem proj_pay2_at (x0 : Vec Ideal S32x64x768 .f32) (W : Vec Ideal S768x64 .f32) (b : Vec Ideal S1x64 .f32) (w : Fin 32) (n d : Fin 64) :
    proj (k0_pay2 (F := Ideal) x0) W b (ix3 w n d)
      = Cert.Attn.lin (fun n i => x0 (ix3 w n i)) (fun i d => W (ix2 i d)) (fun d => b (ix2 (0 : Fin 1) d)) n d := by
  rw [proj_at]
  unfold Cert.Attn.lin
  refine congrArg₂ (· + ·) (Finset.sum_congr rfl fun i _ => ?_) rfl
  rw [pay2_at]

theorem pay3_eq (x0 : Vec Ideal S32x64x768 .f32) (x3 : Vec Ideal S768x64 .f32) (x6 : Vec Ideal S1x64 .f32) :
    k0_pay3 (F := Ideal) x0 x3 x6 = truncf .bf16 (proj (k0_pay2 (F := Ideal) x0) x3 x6) Facts₀.bitsLt_bf16_f32 := rfl

/-- The values of window `w`. -/
theorem pay3_at (x0 : Vec Ideal S32x64x768 .f32) (x3 : Vec Ideal S768x64 .f32) (x6 : Vec Ideal S1x64 .f32) (w : Fin 32) (n d : Fin 64) :
    k0_pay3 (F := Ideal) x0 x3 x6 (ix3 w n d)
      = Cert.Attn.lin (fun n i => x0 (ix3 w n i)) (fun i d => x3 (ix2 i d)) (fun d => x6 (ix2 (0 : Fin 1) d)) n d := by
  rw [pay3_eq, truncf_apply, proj_pay2_at]

/-! ## Scores and row maxima -/

theorem pay4_eq (x0 : Vec Ideal S32x64x768 .f32) (x1 x2 : Vec Ideal S768x64 .f32) (x4 x5 : Vec Ideal S1x64 .f32) :
    k0_pay4 (F := Ideal) x0 x1 x2 x4 x5
      = mulf (matmul dot_S32x64x64_S32x64x64_S32x64x64_2_2_1_1_0_0 none
            (truncf .bf16 (proj (k0_pay2 (F := Ideal) x0) x1 x4) Facts₀.bitsLt_bf16_f32)
            (truncf .bf16 (proj (k0_pay2 (F := Ideal) x0) x2 x5) Facts₀.bitsLt_bf16_f32)
            (constant S32x64x64 .f32 0x00000000#32))
          (broadcast S32x64x64 (Scalar.ofBits .f32 0x3E000000#32)) := rfl

/-- The scores of window `w`: queries against keys, times the float 1/8. -/
theorem pay4_at (x0 : Vec Ideal S32x64x768 .f32) (x1 x2 : Vec Ideal S768x64 .f32) (x4 x5 : Vec Ideal S1x64 .f32) (w : Fin 32) (n m : Fin 64) :
    k0_pay4 (F := Ideal) x0 x1 x2 x4 x5 (ix3 w n m)
      = Cert.Attn.score
          (Cert.Attn.lin (fun n i => x0 (ix3 w n i)) (fun i d => x1 (ix2 i d)) (fun d => x4 (ix2 (0 : Fin 1) d)))
          (Cert.Attn.lin (fun n i => x0 (ix3 w n i)) (fun i d => x2 (ix2 i d)) (fun d => x5 (ix2 (0 : Fin 1) d)))
          Cert.Attn.eighth n m := by
  rw [pay4_eq, mulf_apply, mm_qk_at]
  unfold Cert.Attn.score
  refine congrArg₂ (· * ·) (Finset.sum_congr rfl fun k _ => ?_) rfl
  rw [truncf_apply, truncf_apply, proj_pay2_at, proj_pay2_at]

/-- Putting coordinate `k` back on the reduced (last) axis of (w, n). -/
theorem lift_at (w : Fin 32) (n k : Fin 64) :
    Facts₀.reduces_S32x64x64_S32x64.lift (ix2 w n) k = ix3 w n k := by
  funext a
  match a with
  | ⟨0, _⟩ => rfl
  | ⟨1, _⟩ => rfl
  | ⟨2, _⟩ => rfl

/-- The row maxima of window `w`: the fold of `max` from −∞ over the row's scores. -/
theorem pay5_at (x0 : Vec Ideal S32x64x768 .f32) (x1 x2 : Vec Ideal S768x64 .f32) (x4 x5 : Vec Ideal S1x64 .f32) (w : Fin 32) (n : Fin 64) :
    k0_pay5 (F := Ideal) x0 x1 x2 x4 x5 (ix2 w n)
      = (Finset.univ : Finset (Fin 64)).fold max Cert.Attn.negInf (fun k => k0_pay4 (F := Ideal) x0 x1 x2 x4 x5 (ix3 w n k)) := by
  unfold k0_pay5
  refine (Ideal.multiReduction_maximumf_single (k0_pay4 (F := Ideal) x0 x1 x2 x4 x5) 0xFF800000#32 Facts₀.reduces_S32x64x64_S32x64 (.inl rfl) rfl (ix2 w n)).trans ?_
  exact congrArg (fun f : Fin 64 → EReal => (Finset.univ : Finset (Fin 64)).fold max Cert.Attn.negInf f)
    (funext fun k => congrArg (k0_pay4 (F := Ideal) x0 x1 x2 x4 x5) (lift_at w n k))

/-! ## The softmax weights -/

/-- A per-row quantity reshaped [32, 64] → [32, 64, 1] and broadcast along the last axis: at (w, n, m) the row's value. -/
theorem rowcast_at (v : FVec Ideal S32x64 .f32) (w : Fin 32) (n m : Fin 64) :
    broadcastTo S32x64x64 (shapeCast S32x64x1 v Facts₀.shapeCasts_S32x64_S32x64x1) Facts₀.broadcasts_S32x64x1_S32x64x64 (ix3 w n m)
      = v (ix2 w n) := by
  refine (broadcastTo_apply _ _ (ix3 w n m) (ix3 w n (0 : Fin 1)) ?_).trans ?_
  · intro a
    match a with
    | ⟨0, _⟩ => rfl
    | ⟨1, _⟩ => rfl
    | ⟨2, _⟩ => rfl
  refine shapeCast_apply v _ (ix3 w n (0 : Fin 1)) (ix2 w n) ?_
  rw [Shape.rowMajor_val_three, Shape.rowMajor_val_two]
  show w.val * 64 + n.val = (w.val * 64 + n.val) * 1 + 0
  omega

/-- `exp` of the scores less their row's maximum joined with −∞, as the body spells it. -/
def expd (S : FVec Ideal S32x64x64 .f32) (M : FVec Ideal S32x64 .f32) : FVec Ideal S32x64x64 .f32 :=
  exp (subf S (broadcastTo S32x64x64
    (shapeCast S32x64x1 (maximumf (broadcast S32x64 (Scalar.ofBits .f32 0xFF800000#32)) M) Facts₀.shapeCasts_S32x64_S32x64x1)
    Facts₀.broadcasts_S32x64x1_S32x64x64))

theorem expd_at (S : FVec Ideal S32x64x64 .f32) (M : FVec Ideal S32x64 .f32) (w : Fin 32) (n m : Fin 64) :
    expd S M (ix3 w n m) = Ideal.exp (S (ix3 w n m) - max Cert.Attn.negInf (M (ix2 w n))) := by
  unfold expd
  show Ideal.exp (S (ix3 w n m) - _) = _
  rw [rowcast_at]
  rfl

/-- The quotient by the row's sum, as the body spells it. -/
def weights (S : FVec Ideal S32x64x64 .f32) (M : FVec Ideal S32x64 .f32) : FVec Ideal S32x64x64 .f32 :=
  divf (expd S M) (broadcastTo S32x64x64
    (shapeCast S32x64x1 (multiReduction .add [2] S32x64 (expd S M) 0x00000000#32 Facts₀.reduces_S32x64x64_S32x64 (.inl rfl) rfl) Facts₀.shapeCasts_S32x64_S32x64x1)
    Facts₀.broadcasts_S32x64x1_S32x64x64)

theorem weights_at (S : FVec Ideal S32x64x64 .f32) (M : FVec Ideal S32x64 .f32) (w : Fin 32) (n m : Fin 64) :
    weights S M (ix3 w n m) = Ideal.div (expd S M (ix3 w n m)) (∑ k : Fin 64, expd S M (ix3 w n k)) := by
  unfold weights
  rw [divf_apply, rowcast_at]
  refine congrArg (Ideal.div _) ?_
  refine (Ideal.multiReduction_add_single (expd S M) 0x00000000#32 Facts₀.reduces_S32x64x64_S32x64 (.inl rfl) rfl (ix2 w n)).trans ?_
  exact Finset.sum_congr rfl fun k _ => congrArg (expd S M) (lift_at w n k)

/-! ## The stored value -/

theorem pay1_eq (V : FVec Ideal S32x64x64 .bf16) (S : FVec Ideal S32x64x64 .f32) (M : FVec Ideal S32x64 .f32)
    (Wo : Vec Ideal S64x768 .f32) (bo : Vec Ideal S1x768 .f32) :
    k0_pay1 (F := Ideal) V S M Wo bo
      = shapeCast S32x64x768
          (addf
            (matmul dot_S2048x64_S64x768_S2048x768_1_0_0_1_n_n none
              (truncf .bf16
                (shapeCast S2048x64
                  (matmul dot_S32x64x64_S32x64x64_S32x64x64_2_1_1_2_0_0 none (truncf .bf16 (weights S M) Facts₀.bitsLt_bf16_f32) V (constant S32x64x64 .f32 0x00000000#32))
                  Facts₀.shapeCasts_S32x64x64_S2048x64)
                Facts₀.bitsLt_bf16_f32)
              (truncf .bf16 (shapeCast S64x768 Wo Facts₀.shapeCasts_S64x768_S64x768) Facts₀.bitsLt_bf16_f32)
              (constant S2048x768 .f32 0x00000000#32))
            (broadcastTo S2048x768 (shapeCast S1x768 bo Facts₀.shapeCasts_S1x768_S1x768) Facts₀.broadcasts_S1x768_S2048x768))
          Facts₀.shapeCasts_S2048x768_S32x64x768 := rfl

/-- At (w, n, o): the weights average the values, and the output map takes the 64 averaged features to feature `o`. -/
theorem pay1_at (V : FVec Ideal S32x64x64 .bf16) (S : FVec Ideal S32x64x64 .f32) (M : FVec Ideal S32x64 .f32)
    (Wo : Vec Ideal S64x768 .f32) (bo : Vec Ideal S1x768 .f32) (w : Fin 32) (n : Fin 64) (o : Fin 768) :
    k0_pay1 (F := Ideal) V S M Wo bo (ix3 w n o)
      = (∑ d : Fin 64, (∑ m : Fin 64, weights S M (ix3 w n m) * V (ix3 w m d)) * Wo (ix2 d o)) + bo (ix2 (0 : Fin 1) o) := by
  rw [pay1_eq, shapeCast_self, shapeCast_self]
  refine (shapeCast_apply _ _ (ix3 w n o) (ix2 (row w n) o) ?_).trans ?_
  · rw [Shape.rowMajor_val_three, Shape.rowMajor_val_two]
    show (64 * w.val + n.val) * 768 + o.val = (w.val * 64 + n.val) * 768 + o.val
    omega
  rw [addf_apply, mm_out_at]
  refine congrArg₂ (· + ·) (Finset.sum_congr rfl fun d _ => ?_) ?_
  · refine congrArg₂ (· * ·) ?_ rfl
    rw [truncf_apply]
    refine (shapeCast_apply _ _ (ix2 (row w n) d) (ix3 w n d) ?_).trans ?_
    · rw [Shape.rowMajor_val_three, Shape.rowMajor_val_two]
      show (w.val * 64 + n.val) * 64 + d.val = (64 * w.val + n.val) * 64 + d.val
      omega
    rw [mm_pv_at]
    rfl
  · refine broadcastTo_apply bo _ (ix2 (row w n) o) (ix2 0 o) ?_
    intro a
    match a with
    | ⟨0, _⟩ => rfl
    | ⟨1, _⟩ => rfl

/-! ## The block's result -/

theorem hz3 : (![0, 0, 0] : Fin 3 → Nat) = fun _ => 0 := funext fun a => by fin_cases a <;> rfl
theorem hz2 : (![0, 0] : Fin 2 → Nat) = fun _ => 0 := funext fun a => by fin_cases a <;> rfl

/-- A window's output at (n, o), with the outer affine map and the average written out. -/
theorem window_apply (X : Fin 64 → Fin 768 → EReal) (Wq Wk Wv : Fin 768 → Fin 64 → EReal) (bq bk bv : Fin 64 → EReal)
    (Wo : Fin 64 → Fin 768 → EReal) (bo : Fin 768 → EReal) (c : EReal) (n : Fin 64) (o : Fin 768) :
    Cert.Attn.window X Wq Wk Wv bq bk bv Wo bo c n o
      = (∑ d : Fin 64, (∑ m : Fin 64,
            Cert.Attn.soft (Cert.Attn.score (Cert.Attn.lin X Wq bq) (Cert.Attn.lin X Wk bk) c) n m * Cert.Attn.lin X Wv bv m d) * Wo d o)
          + bo o := rfl

/-- The body's `exp` of a score less its row's maximum is the specification's, window by window. -/
theorem expd_pay_at (x0 : Vec Ideal S32x64x768 .f32) (x1 x2 : Vec Ideal S768x64 .f32) (x4 x5 : Vec Ideal S1x64 .f32) (w : Fin 32) (n m : Fin 64) :
    expd (k0_pay4 (F := Ideal) x0 x1 x2 x4 x5) (k0_pay5 (F := Ideal) x0 x1 x2 x4 x5) (ix3 w n m)
      = Cert.Attn.expo (Cert.Attn.score (Cert.Attn.lin (fun n i => x0 (ix3 w n i)) (fun i d => x1 (ix2 i d)) (fun d => x4 (ix2 (0 : Fin 1) d))) (Cert.Attn.lin (fun n i => x0 (ix3 w n i)) (fun i d => x2 (ix2 i d)) (fun d => x5 (ix2 (0 : Fin 1) d))) Cert.Attn.eighth) n m := by
  have hS : (fun k => k0_pay4 (F := Ideal) x0 x1 x2 x4 x5 (ix3 w n k)) = fun k => (Cert.Attn.score (Cert.Attn.lin (fun n i => x0 (ix3 w n i)) (fun i d => x1 (ix2 i d)) (fun d => x4 (ix2 (0 : Fin 1) d))) (Cert.Attn.lin (fun n i => x0 (ix3 w n i)) (fun i d => x2 (ix2 i d)) (fun d => x5 (ix2 (0 : Fin 1) d))) Cert.Attn.eighth) n k :=
    funext fun k => pay4_at x0 x1 x2 x4 x5 w n k
  rw [expd_at, pay5_at, hS, pay4_at]
  rfl

/-- The body's softmax weights are the specification's, window by window. -/
theorem weights_pay_at (x0 : Vec Ideal S32x64x768 .f32) (x1 x2 : Vec Ideal S768x64 .f32) (x4 x5 : Vec Ideal S1x64 .f32) (w : Fin 32) (n m : Fin 64) :
    weights (k0_pay4 (F := Ideal) x0 x1 x2 x4 x5) (k0_pay5 (F := Ideal) x0 x1 x2 x4 x5) (ix3 w n m)
      = Cert.Attn.soft (Cert.Attn.score (Cert.Attn.lin (fun n i => x0 (ix3 w n i)) (fun i d => x1 (ix2 i d)) (fun d => x4 (ix2 (0 : Fin 1) d))) (Cert.Attn.lin (fun n i => x0 (ix3 w n i)) (fun i d => x2 (ix2 i d)) (fun d => x5 (ix2 (0 : Fin 1) d))) Cert.Attn.eighth) n m := by
  rw [weights_at]
  unfold Cert.Attn.soft
  rw [expd_pay_at]
  exact congrArg (Ideal.div _) (Finset.sum_congr rfl fun k _ => expd_pay_at x0 x1 x2 x4 x5 w n k)

/-- What the body leaves in the output block: window `w` of the input block mapped by `Cert.Attn.window`. -/
theorem body_eq (x0 : Vec Ideal S32x64x768 .f32) (x1 x2 x3 : Vec Ideal S768x64 .f32) (x4 x5 x6 : Vec Ideal S1x64 .f32)
    (x7 : Vec Ideal S64x768 .f32) (x8 : Vec Ideal S1x768 .f32) (w : Fin 32) (n : Fin 64) (o : Fin 768) :
    Gen.out0_9 (F := Ideal) x0 x1 x2 x3 x4 x5 x6 x7 x8 (ix3 w n o)
      = Cert.Attn.window (fun n i => x0 (ix3 w n i)) (fun i d => x1 (ix2 i d)) (fun i d => x2 (ix2 i d)) (fun i d => x3 (ix2 i d))
          (fun d => x4 (ix2 (0 : Fin 1) d)) (fun d => x5 (ix2 (0 : Fin 1) d)) (fun d => x6 (ix2 (0 : Fin 1) d))
          (fun d o => x7 (ix2 d o)) (fun o => x8 (ix2 (0 : Fin 1) o)) Cert.Attn.eighth n o := by
  unfold Gen.out0_9
  rw [View.canon_unit_zero hz3]
  simp only [View.ld_unit_zero (S := S32x64x768) hz3, View.ld_unit_zero (S := S768x64) hz2, View.ld_unit_zero (S := S1x64) hz2,
    View.ld_unit_zero (S := S64x768) hz2, View.ld_unit_zero (S := S1x768) hz2]
  rw [pay1_at, window_apply]
  refine congrArg₂ (· + ·) (Finset.sum_congr rfl fun d _ => ?_) rfl
  refine congrArg₂ (· * ·) (Finset.sum_congr rfl fun m _ => ?_) rfl
  rw [weights_pay_at, pay3_at]

end Cert.BodyAttn

end
-- ==== Proof.Entry.lean ====
/-
  The arrays the kernel's windows are cut from, as the host lines before the launch leave them, read at an index
  in terms of the five argument arrays.

  The input of shape [32, 64, 64, 768] is re-read as [2048, 64, 768]: row r = 64·b + s is window (b, s). The first
  weight matrix [192, 768] is cut into its three bands of 64 rows, each transposed to [768, 64]: entry (i, d) of band
  `off` is entry (off + d, i) of the matrix. The first bias is cut the same way, each piece re-read as one row
  [1, 64]. The second weight matrix [768, 64] is transposed to [64, 768], and the second bias re-read as one row.
-/
import proofs.«159999_j46394236731817_2_alg».proof.Proof.Gen.KernelIdeal.Frame
import proofs.«159999_j46394236731817_2_alg».proof.Proof.Attn
import Idealize.ShloMosaic.Lib.Pipeline.Value
import Idealize.ShloMosaic.Lib.ValueIdx
import Idealize.ShloMosaic.Lib.StableHlo.Run
import Idealize.ShloMosaic.Lib.Tactic

noncomputable section

namespace Cert.Entry

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The five argument arrays on core `c`. -/
abbrev ax (c : Dev nD) : S32x64x64x768.Idx → EReal := m ((c : Thread nD τ).loc main_arg0)
abbrev aW1 (c : Dev nD) : S192x768.Idx → EReal := m ((c : Thread nD τ).loc main_arg1)
abbrev ab1 (c : Dev nD) : S192.Idx → EReal := m ((c : Thread nD τ).loc main_arg2)
abbrev aW2 (c : Dev nD) : S768x64.Idx → EReal := m ((c : Thread nD τ).loc main_arg3)
abbrev ab2 (c : Dev nD) : S768.Idx → EReal := m ((c : Thread nD τ).loc main_arg4)

/-! ## Each staged array as the host operations' term -/

theorem V_v0 (c : Dev nD) : (V m c main_v0 : S2048x64x768.Idx → EReal)
    = shapeCast S2048x64x768 (ax m c) shapeCasts_S32x64x64x768_S2048x64x768 := by
  show StableHlo.after hostOps0 (fun b => m (c, b)) (Proc.devRef .tc main_v0) = _
  after_results
  try rfl

theorem V_band (c : Dev nD) :
    (V m c main_v4 : S768x64.Idx → EReal)
      = transpose S768x64 [1, 0] (extractStridedSlice S64x768 ![0, 0] (aW1 m c) slices_S192x768_S64x768_0_0) transposes_S64x768_S768x64_1_0
    ∧ (V m c main_v5 : S768x64.Idx → EReal)
      = transpose S768x64 [1, 0] (extractStridedSlice S64x768 ![64, 0] (aW1 m c) slices_S192x768_S64x768_64_0) transposes_S64x768_S768x64_1_0
    ∧ (V m c main_v6 : S768x64.Idx → EReal)
      = transpose S768x64 [1, 0] (extractStridedSlice S64x768 ![128, 0] (aW1 m c) slices_S192x768_S64x768_128_0) transposes_S64x768_S768x64_1_0 := by
  refine ⟨?_, ?_, ?_⟩
  · show StableHlo.after hostOps0 (fun b => m (c, b)) (Proc.devRef .tc main_v4) = _
    after_results
    try rfl
  · show StableHlo.after hostOps0 (fun b => m (c, b)) (Proc.devRef .tc main_v5) = _
    after_results
    try rfl
  · show StableHlo.after hostOps0 (fun b => m (c, b)) (Proc.devRef .tc main_v6) = _
    after_results
    try rfl

theorem V_bias (c : Dev nD) :
    (V m c main_v8 : S1x64.Idx → EReal)
      = shapeCast S1x64 (extractStridedSlice S64 ![0] (ab1 m c) slices_S192_S64_0) shapeCasts_S64_S1x64
    ∧ (V m c main_v10 : S1x64.Idx → EReal)
      = shapeCast S1x64 (extractStridedSlice S64 ![64] (ab1 m c) slices_S192_S64_64) shapeCasts_S64_S1x64
    ∧ (V m c main_v12 : S1x64.Idx → EReal)
      = shapeCast S1x64 (extractStridedSlice S64 ![128] (ab1 m c) slices_S192_S64_128) shapeCasts_S64_S1x64 := by
  refine ⟨?_, ?_, ?_⟩
  · show StableHlo.after hostOps0 (fun b => m (c, b)) (Proc.devRef .tc main_v8) = _
    after_results
    try rfl
  · show StableHlo.after hostOps0 (fun b => m (c, b)) (Proc.devRef .tc main_v10) = _
    after_results
    try rfl
  · show StableHlo.after hostOps0 (fun b => m (c, b)) (Proc.devRef .tc main_v12) = _
    after_results
    try rfl

theorem V_v13 (c : Dev nD) : (V m c main_v13 : S64x768.Idx → EReal)
    = transpose S64x768 [1, 0] (aW2 m c) transposes_S768x64_S64x768_1_0 := by
  show StableHlo.after hostOps0 (fun b => m (c, b)) (Proc.devRef .tc main_v13) = _
  after_results
  try rfl

theorem V_v14 (c : Dev nD) : (V m c main_v14 : S1x768.Idx → EReal)
    = shapeCast S1x768 (ab2 m c) shapeCasts_S768_S1x768 := by
  show StableHlo.after hostOps0 (fun b => m (c, b)) (Proc.devRef .tc main_v14) = _
  after_results
  try rfl

/-! ## Read at an index -/

/-- Row r = 64·b + s of the re-read input is window (b, s). -/
theorem v0_at (c : Dev nD) (b : Fin 32) (s n : Fin 64) (i : Fin 768) (r : Fin 2048) (hr : r.val = 64 * b.val + s.val) :
    (V m c main_v0 : S2048x64x768.Idx → EReal) (ix3 r n i) = Attn.xwin (ax m c) b s n i := by
  rw [V_v0]
  refine (shapeCast_apply _ _ _ (ix4 b s n i) ?_).trans rfl
  rw [Shape.rowMajor_val_four, Shape.rowMajor_val_three]
  show ((b.val * 64 + s.val) * 64 + n.val) * 768 + i.val = (r.val * 64 + n.val) * 768 + i.val
  rw [hr]; omega

/-- Entry (i, d) of a transposed band is entry (off + d, i) of the first weight matrix. -/
theorem v4_at (c : Dev nD) (i : Fin 768) (d : Fin 64) :
    (V m c main_v4 : S768x64.Idx → EReal) (ix2 i d) = Attn.wcols 0 (by decide) (aW1 m c) i d := by
  rw [(V_band m c).1]
  refine (transpose_apply _ _ _ _ (ix2 d i) (fun b => match b with | ⟨0, _⟩ => rfl | ⟨1, _⟩ => rfl)).trans ?_
  exact (extractStridedSlice_apply _ _ _ _ (ix2 (⟨0 + d.val, by have := d.isLt; omega⟩ : Fin 192) i) (fun a => match a with
    | ⟨0, _⟩ => rfl
    | ⟨1, _⟩ => by show i.val = 0 + i.val; omega)).trans rfl

theorem v5_at (c : Dev nD) (i : Fin 768) (d : Fin 64) :
    (V m c main_v5 : S768x64.Idx → EReal) (ix2 i d) = Attn.wcols 64 (by decide) (aW1 m c) i d := by
  rw [(V_band m c).2.1]
  refine (transpose_apply _ _ _ _ (ix2 d i) (fun b => match b with | ⟨0, _⟩ => rfl | ⟨1, _⟩ => rfl)).trans ?_
  exact (extractStridedSlice_apply _ _ _ _ (ix2 (⟨64 + d.val, by have := d.isLt; omega⟩ : Fin 192) i) (fun a => match a with
    | ⟨0, _⟩ => rfl
    | ⟨1, _⟩ => by show i.val = 0 + i.val; omega)).trans rfl

theorem v6_at (c : Dev nD) (i : Fin 768) (d : Fin 64) :
    (V m c main_v6 : S768x64.Idx → EReal) (ix2 i d) = Attn.wcols 128 (by decide) (aW1 m c) i d := by
  rw [(V_band m c).2.2]
  refine (transpose_apply _ _ _ _ (ix2 d i) (fun b => match b with | ⟨0, _⟩ => rfl | ⟨1, _⟩ => rfl)).trans ?_
  exact (extractStridedSlice_apply _ _ _ _ (ix2 (⟨128 + d.val, by have := d.isLt; omega⟩ : Fin 192) i) (fun a => match a with
    | ⟨0, _⟩ => rfl
    | ⟨1, _⟩ => by show i.val = 0 + i.val; omega)).trans rfl

/-- Entry (0, d) of a bias piece re-read as one row is entry off + d of the first bias. -/
theorem v8_at (c : Dev nD) (d : Fin 64) :
    (V m c main_v8 : S1x64.Idx → EReal) (ix2 (0 : Fin 1) d) = Attn.bcols 0 (by decide) (ab1 m c) d := by
  rw [(V_bias m c).1]
  refine (shapeCast_apply _ _ _ (ix1 d) ?_).trans ?_
  · rw [Shape.rowMajor_val_one, Shape.rowMajor_val_two]; show d.val = 0 * 64 + d.val; omega
  · exact (extractStridedSlice_apply _ _ _ _ (ix1 (⟨0 + d.val, by have := d.isLt; omega⟩ : Fin 192)) (fun a => match a with
      | ⟨0, _⟩ => rfl)).trans rfl

theorem v10_at (c : Dev nD) (d : Fin 64) :
    (V m c main_v10 : S1x64.Idx → EReal) (ix2 (0 : Fin 1) d) = Attn.bcols 64 (by decide) (ab1 m c) d := by
  rw [(V_bias m c).2.1]
  refine (shapeCast_apply _ _ _ (ix1 d) ?_).trans ?_
  · rw [Shape.rowMajor_val_one, Shape.rowMajor_val_two]; show d.val = 0 * 64 + d.val; omega
  · exact (extractStridedSlice_apply _ _ _ _ (ix1 (⟨64 + d.val, by have := d.isLt; omega⟩ : Fin 192)) (fun a => match a with
      | ⟨0, _⟩ => rfl)).trans rfl

theorem v12_at (c : Dev nD) (d : Fin 64) :
    (V m c main_v12 : S1x64.Idx → EReal) (ix2 (0 : Fin 1) d) = Attn.bcols 128 (by decide) (ab1 m c) d := by
  rw [(V_bias m c).2.2]
  refine (shapeCast_apply _ _ _ (ix1 d) ?_).trans ?_
  · rw [Shape.rowMajor_val_one, Shape.rowMajor_val_two]; show d.val = 0 * 64 + d.val; omega
  · exact (extractStridedSlice_apply _ _ _ _ (ix1 (⟨128 + d.val, by have := d.isLt; omega⟩ : Fin 192)) (fun a => match a with
      | ⟨0, _⟩ => rfl)).trans rfl

/-- Entry (d, o) of the transposed second weight matrix is its entry (o, d). -/
theorem v13_at (c : Dev nD) (d : Fin 64) (o : Fin 768) :
    (V m c main_v13 : S64x768.Idx → EReal) (ix2 d o) = Attn.wout (aW2 m c) d o := by
  rw [V_v13]
  exact (transpose_apply _ _ _ _ (ix2 o d) (fun b => match b with | ⟨0, _⟩ => rfl | ⟨1, _⟩ => rfl)).trans rfl

/-- Entry (0, o) of the second bias re-read as one row is its entry o. -/
theorem v14_at (c : Dev nD) (o : Fin 768) :
    (V m c main_v14 : S1x768.Idx → EReal) (ix2 (0 : Fin 1) o) = Attn.bout (ab2 m c) o := by
  rw [V_v14]
  refine (shapeCast_apply _ _ _ (ix1 o) ?_).trans rfl
  rw [Shape.rowMajor_val_one, Shape.rowMajor_val_two]; show o.val = 0 * 768 + o.val; omega

end Cert.Entry

end
-- ==== Proof.Blocks.lean ====
/-
  From blocks to the array. The grid has 64 points; point t handles rows 32·t … 32·t + 31 of the re-read input
  [2048, 64, 768] — 32 windows — and writes the same rows of the result; the weights and biases are staged whole at
  every point. So what point t writes back is block t of ONE function of the arrays the launch finds: at (r, n, o),
  the attention window built from row-block r of the input, at token n and feature o. The 64 blocks tile the result
  (row r lies in block r / 32), so the result array ends holding that function; and read through the host lines before
  the launch, row r = 64·b + s is window (b, s) of the argument arrays.
-/
import proofs.«159999_j46394236731817_2_alg».proof.Proof.Entry
import Idealize.ShloMosaic.Lib.Pipeline.Value

noncomputable section

namespace Cert.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Entry

variable (m : (ℓ : Loc nD τ sig) → Buf (Elt Ideal) ℓ)

/-- Windows with the same data, entry by entry, have the same output. -/
theorem window_congr {X X' : Fin 64 → Fin 768 → EReal} {Wq Wq' Wk Wk' Wv Wv' : Fin 768 → Fin 64 → EReal}
    {bq bq' bk bk' bv bv' : Fin 64 → EReal} {Wo Wo' : Fin 64 → Fin 768 → EReal} {bo bo' : Fin 768 → EReal} (c : EReal)
    (hX : ∀ n i, X n i = X' n i) (hq : ∀ i d, Wq i d = Wq' i d) (hk : ∀ i d, Wk i d = Wk' i d) (hv : ∀ i d, Wv i d = Wv' i d)
    (hbq : ∀ d, bq d = bq' d) (hbk : ∀ d, bk d = bk' d) (hbv : ∀ d, bv d = bv' d)
    (ho : ∀ d o, Wo d o = Wo' d o) (hbo : ∀ o, bo o = bo' o) (n : Fin 64) (o : Fin 768) :
    Attn.window X Wq Wk Wv bq bk bv Wo bo c n o = Attn.window X' Wq' Wk' Wv' bq' bk' bv' Wo' bo' c n o := by
  obtain rfl : X = X' := funext fun n => funext fun i => hX n i
  obtain rfl : Wq = Wq' := funext fun i => funext fun d => hq i d
  obtain rfl : Wk = Wk' := funext fun i => funext fun d => hk i d
  obtain rfl : Wv = Wv' := funext fun i => funext fun d => hv i d
  obtain rfl : bq = bq' := funext hbq
  obtain rfl : bk = bk' := funext hbk
  obtain rfl : bv = bv' := funext hbv
  obtain rfl : Wo = Wo' := funext fun d => funext fun o => ho d o
  obtain rfl : bo = bo' := funext hbo
  rfl

/-- The function of the staged arrays whose blocks the points write: at (r, n, o), the window built from row-block
    r of the first array and the eight whole arrays, at token n, feature o. -/
def GK (A0 : S2048x64x768.Idx → EReal) (A1 A2 A3 : S768x64.Idx → EReal) (A4 A5 A6 : S1x64.Idx → EReal)
    (A7 : S64x768.Idx → EReal) (A8 : S1x768.Idx → EReal) : S2048x64x768.Idx → EReal :=
  fun j => Attn.window (fun n k => A0 (ix3 (j 0) n k)) (fun k d => A1 (ix2 k d)) (fun k d => A2 (ix2 k d)) (fun k d => A3 (ix2 k d))
    (fun d => A4 (ix2 (0 : Fin 1) d)) (fun d => A5 (ix2 (0 : Fin 1) d)) (fun d => A6 (ix2 (0 : Fin 1) d))
    (fun d o => A7 (ix2 d o)) (fun o => A8 (ix2 (0 : Fin 1) o)) Attn.eighth (j 1) (j 2)

/-- What the kernel's body is required to compute on one block: window w of the block's output is the attention
    window of window w of the block's input. -/
def BodySpec : Prop :=
  ∀ (x0 : Vec Ideal S32x64x768 .f32) (x1 x2 x3 : Vec Ideal S768x64 .f32) (x4 x5 x6 : Vec Ideal S1x64 .f32)
    (x7 : Vec Ideal S64x768 .f32) (x8 : Vec Ideal S1x768 .f32) (w : Fin 32) (n : Fin 64) (o : Fin 768),
    out0_9 (F := Ideal) x0 x1 x2 x3 x4 x5 x6 x7 x8 (ix3 w n o)
      = Attn.window (fun n i => x0 (ix3 w n i)) (fun i d => x1 (ix2 i d)) (fun i d => x2 (ix2 i d)) (fun i d => x3 (ix2 i d))
          (fun d => x4 (ix2 (0 : Fin 1) d)) (fun d => x5 (ix2 (0 : Fin 1) d)) (fun d => x6 (ix2 (0 : Fin 1) d))
          (fun d o => x7 (ix2 d o)) (fun o => x8 (ix2 (0 : Fin 1) o)) Attn.eighth n o

/-- The printed index maps over the grid: the input's and the result's block index is (t, 0, 0); every other window's
    is (0, 0). -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each window's block at a point, read off its array -/

/-- Window w of the input's block at point t is row 32·t + w of the re-read input. -/
theorem iblk0_at (c : Dev nD) (t : Fin cfg0.N) (w : Fin 32) (n : Fin 64) (i : Fin 768) (r : Fin 2048) (hr : r.val = 32 * t.val + w.val) :
    (iblk m c 0 t : Vec Ideal S32x64x768 .f32) (ix3 w n i) = (V m c main_v0 : S2048x64x768.Idx → EReal) (ix3 r n i) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 32 + 1 * w.val = r.val; rw [e0, hr]; omega
  | ⟨1, _⟩ => show win0_0.index t 1 * 64 + 1 * n.val = n.val; rw [e1]; omega
  | ⟨2, _⟩ => show win0_0.index t 2 * 768 + 1 * i.val = i.val; rw [e2]; omega

/-- The other windows' blocks are their whole arrays, at every point. -/
theorem iblk1_at (c : Dev nD) (t : Fin cfg0.N) (i : Fin 768) (d : Fin 64) :
    (iblk m c 1 t : Vec Ideal S768x64 .f32) (ix2 i d) = (V m c main_v4 : S768x64.Idx → EReal) (ix2 i d) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_1.index t 0 * 768 + 1 * (i : Fin 768).val = (i : Fin 768).val; rw [e0]; omega
  | ⟨1, _⟩ => show win0_1.index t 1 * 64 + 1 * (d : Fin 64).val = (d : Fin 64).val; rw [e1]; omega
theorem iblk2_at (c : Dev nD) (t : Fin cfg0.N) (i : Fin 768) (d : Fin 64) :
    (iblk m c 2 t : Vec Ideal S768x64 .f32) (ix2 i d) = (V m c main_v5 : S768x64.Idx → EReal) (ix2 i d) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_2.index t 0 * 768 + 1 * (i : Fin 768).val = (i : Fin 768).val; rw [e0]; omega
  | ⟨1, _⟩ => show win0_2.index t 1 * 64 + 1 * (d : Fin 64).val = (d : Fin 64).val; rw [e1]; omega
theorem iblk3_at (c : Dev nD) (t : Fin cfg0.N) (i : Fin 768) (d : Fin 64) :
    (iblk m c 3 t : Vec Ideal S768x64 .f32) (ix2 i d) = (V m c main_v6 : S768x64.Idx → EReal) (ix2 i d) := by
  obtain ⟨-, -, -, -, -, -, -, -, -, -, e0, e1, -⟩ := idx_facts t
  unfold iblk
  rw [View.read_apply]
  show V m c main_v6 _ = V m c main_v6 _
  congr 1
  funext a
  apply Fin.ext
  match a with
  | ⟨0, _⟩ => show win0_3.index t 0 * 768 + 1 * (i : Fin 768).val = (i : Fin 768).val; rw [e0]; omega
  | ⟨1, _⟩ => show win0_3.index t 1 * 64 + 1 * (d : Fin 64).val = (d : Fin 64).val; rw [e1]; omega
theorem iblk4_at (c : Dev nD) (t : Fin cfg0.N) (z : Fin 1) (d : Fin 64) :
    (iblk m c 4 t : Vec Ideal S1x64 .f32) (ix2 z d) = (V m c main_v8 : S1x64.Idx → EReal) (ix2 z d) := by
  obtain ⟨-, -, -, -, -, -, -, -, -, -, -, -, e0, e1, -⟩ := idx_facts t
  unfold iblk
  rw [View.read_apply]
  show V m c main_v8 _ = V m c main_v8 _
  congr 1
  funext a
  apply Fin.ext
  match a with
  | ⟨0, _⟩ => show win0_4.index t 0 * 1 + 1 * (z : Fin 1).val = (z : Fin 1).val; rw [e0]; omega
  | ⟨1, _⟩ => show win0_4.index t 1 * 64 + 1 * (d : Fin 64).val = (d : Fin 64).val; rw [e1]; omega
theorem iblk5_at (c : Dev nD) (t : Fin cfg0.N) (z : Fin 1) (d : Fin 64) :
    (iblk m c 5 t : Vec Ideal S1x64 .f32) (ix2 z d) = (V m c main_v10 : S1x64.Idx → EReal) (ix2 z d) := by
  obtain ⟨-, -, -, -, -, -, -, -, -, -, -, -, -, -, e0, e1, -⟩ := idx_facts t
  unfold iblk
  rw [View.read_apply]
  show V m c main_v10 _ = V m c main_v10 _
  congr 1
  funext a
  apply Fin.ext
  match a with
  | ⟨0, _⟩ => show win0_5.index t 0 * 1 + 1 * (z : Fin 1).val = (z : Fin 1).val; rw [e0]; omega
  | ⟨1, _⟩ => show win0_5.index t 1 * 64 + 1 * (d : Fin 64).val = (d : Fin 64).val; rw [e1]; omega
theorem iblk6_at (c : Dev nD) (t : Fin cfg0.N) (z : Fin 1) (d : Fin 64) :
    (iblk m c 6 t : Vec Ideal S1x64 .f32) (ix2 z d) = (V m c main_v12 : S1x64.Idx → EReal) (ix2 z d) := by
  obtain ⟨-, -, -, -, -, -, -, -, -, -, -, -, -, -, -, -, e0, e1, -⟩ := idx_facts t
  unfold iblk
  rw [View.read_apply]
  show V m c main_v12 _ = V m c main_v12 _
  congr 1
  funext a
  apply Fin.ext
  match a with
  | ⟨0, _⟩ => show win0_6.index t 0 * 1 + 1 * (z : Fin 1).val = (z : Fin 1).val; rw [e0]; omega
  | ⟨1, _⟩ => show win0_6.index t 1 * 64 + 1 * (d : Fin 64).val = (d : Fin 64).val; rw [e1]; omega
theorem iblk7_at (c : Dev nD) (t : Fin cfg0.N) (d : Fin 64) (o : Fin 768) :
    (iblk m c 7 t : Vec Ideal S64x768 .f32) (ix2 d o) = (V m c main_v13 : S64x768.Idx → EReal) (ix2 d o) := by
  obtain ⟨-, -, -, -, -, -, -, -, -, -, -, -, -, -, -, -, -, -, e0, e1, -⟩ := idx_facts t
  unfold iblk
  rw [View.read_apply]
  show V m c main_v13 _ = V m c main_v13 _
  congr 1
  funext a
  apply Fin.ext
  match a with
  | ⟨0, _⟩ => show win0_7.index t 0 * 64 + 1 * (d : Fin 64).val = (d : Fin 64).val; rw [e0]; omega
  | ⟨1, _⟩ => show win0_7.index t 1 * 768 + 1 * (o : Fin 768).val = (o : Fin 768).val; rw [e1]; omega
theorem iblk8_at (c : Dev nD) (t : Fin cfg0.N) (z : Fin 1) (o : Fin 768) :
    (iblk m c 8 t : Vec Ideal S1x768 .f32) (ix2 z o) = (V m c main_v14 : S1x768.Idx → EReal) (ix2 z o) := by
  obtain ⟨-, -, -, -, -, -, -, -, -, -, -, -, -, -, -, -, -, -, -, -, e0, e1⟩ := idx_facts t
  unfold iblk
  rw [View.read_apply]
  show V m c main_v14 _ = V m c main_v14 _
  congr 1
  funext a
  apply Fin.ext
  match a with
  | ⟨0, _⟩ => show win0_8.index t 0 * 1 + 1 * (z : Fin 1).val = (z : Fin 1).val; rw [e0]; omega
  | ⟨1, _⟩ => show win0_8.index t 1 * 768 + 1 * (o : Fin 768).val = (o : Fin 768).val; rw [e1]; omega

/-! ## What a point writes back, the cover, and the array after the run -/

/-- Point t writes back block t of `GK` of the staged arrays. -/
theorem flushed_eq (hbody : BodySpec) (c : Dev nD) (t : Fin cfg0.N) :
    (dats m 0 c).flushed 9 t = ((cfg0.win 9).blk t).view.read (Elt Ideal)
      (GK (V m c main_v0) (V m c main_v4) (V m c main_v5) (V m c main_v6) (V m c main_v8) (V m c main_v10) (V m c main_v12) (V m c main_v13) (V m c main_v14)) := by
  show (cfg0.win 9).cut (grid0.coords t) ((dats m 0 c).after 9 t) = _
  rw [after0_9]
  funext j
  obtain ⟨w, n, o, rfl⟩ : ∃ (w : Fin 32) (n : Fin 64) (o : Fin 768), j = ix3 w n o := ⟨j 0, j 1, j 2, eq_ix3 j⟩
  have hN : cfg0.N = 64 := N_0
  have ht : t.val < 64 := hN ▸ t.isLt
  obtain ⟨-, -, -, e0, e1, e2, -⟩ := idx_facts t
  have he : ((cfg0.win 9).blk t).view.emb (ix3 w n o) = ix3 (⟨32 * t.val + w.val, by have := w.isLt; omega⟩ : Fin 2048) n o := by
    funext a
    apply Fin.ext
    match a with
    | ⟨0, _⟩ => show win0_9.index t 0 * 32 + 1 * w.val = 32 * t.val + w.val; rw [e0]; omega
    | ⟨1, _⟩ => show win0_9.index t 1 * 64 + 1 * n.val = n.val; rw [e1]; omega
    | ⟨2, _⟩ => show win0_9.index t 2 * 768 + 1 * o.val = o.val; rw [e2]; omega
  show out0_9 (iblk m c 0 t) (iblk m c 1 t) (iblk m c 2 t) (iblk m c 3 t) (iblk m c 4 t) (iblk m c 5 t) (iblk m c 6 t) (iblk m c 7 t) (iblk m c 8 t) (ix3 w n o)
    = GK (V m c main_v0) (V m c main_v4) (V m c main_v5) (V m c main_v6) (V m c main_v8) (V m c main_v10) (V m c main_v12) (V m c main_v13) (V m c main_v14)
        (((cfg0.win 9).blk t).view.emb (ix3 w n o))
  rw [he]
  refine (hbody (iblk m c 0 t) (iblk m c 1 t) (iblk m c 2 t) (iblk m c 3 t) (iblk m c 4 t) (iblk m c 5 t) (iblk m c 6 t) (iblk m c 7 t) (iblk m c 8 t) w n o).trans ?_
  exact window_congr Attn.eighth
    (fun n i => iblk0_at m c t w n i _ rfl) (fun i d => iblk1_at m c t i d) (fun i d => iblk2_at m c t i d) (fun i d => iblk3_at m c t i d)
    (fun d => iblk4_at m c t 0 d) (fun d => iblk5_at m c t 0 d) (fun d => iblk6_at m c t 0 d)
    (fun d o => iblk7_at m c t d o) (fun o => iblk8_at m c t 0 o) n o

/-- An index of the result is in point t's block iff each coordinate is in the block's range on its axis. -/
theorem mem_blk (t : Fin cfg0.N) (i : S2048x64x768.Idx) :
    i ∈ ((cfg0.win 9).blk t).view.set ↔ ∀ a : Fin 3, win0_9.index t a * S32x64x768.size a ≤ (i a).val ∧ (i a).val < win0_9.index t a * S32x64x768.size a + S32x64x768.size a := by
  show i ∈ ((View.whole main_v15).slice (win0_9.rect t)).set ↔ _
  rw [View.set_slice_whole, Rect.mem_set_unit]
  exact Iff.rfl

/-- Every index of the result is in some point's block: row r is in block r / 32. -/
theorem cover (i : S2048x64x768.Idx) : ∃ t : Fin cfg0.N, (cfg0.win 9).flush t = true ∧ i ∈ ((cfg0.win 9).blk t).view.set := by
  have h0 : (i 0).val < 2048 := (i 0).isLt
  have h1 : (i 1).val < 64 := (i 1).isLt
  have h2 : (i 2).val < 768 := (i 2).isLt
  have hN : cfg0.N = 64 := N_0
  have hlt : (i 0).val / 32 < cfg0.N := by rw [hN]; omega
  refine ⟨⟨(i 0).val / 32, hlt⟩, flush0_9 _, ?_⟩
  rw [mem_blk]
  obtain ⟨-, -, -, e0, e1, e2, -⟩ := idx_facts ⟨(i 0).val / 32, hlt⟩
  intro a
  match a with
  | ⟨0, _⟩ => show win0_9.index ⟨(i 0).val / 32, hlt⟩ 0 * 32 ≤ (i 0).val ∧ (i 0).val < win0_9.index ⟨(i 0).val / 32, hlt⟩ 0 * 32 + 32; rw [e0]; show (i 0).val / 32 * 32 ≤ (i 0).val ∧ (i 0).val < (i 0).val / 32 * 32 + 32; omega
  | ⟨1, _⟩ => show win0_9.index ⟨(i 0).val / 32, hlt⟩ 1 * 64 ≤ (i 1).val ∧ (i 1).val < win0_9.index ⟨(i 0).val / 32, hlt⟩ 1 * 64 + 64; rw [e1]; omega
  | ⟨2, _⟩ => show win0_9.index ⟨(i 0).val / 32, hlt⟩ 2 * 768 ≤ (i 2).val ∧ (i 2).val < win0_9.index ⟨(i 0).val / 32, hlt⟩ 2 * 768 + 768; rw [e2]; omega

/-- The result array after the run is `GK` of the staged arrays. -/
theorem final (hbody : BodySpec) (c : Dev nD) :
    (dats m 0 c).arrAt 9 cfg0.N
      = GK (V m c main_v0) (V m c main_v4) (V m c main_v5) (V m c main_v6) (V m c main_v8) (V m c main_v10) (V m c main_v12) (V m c main_v13) (V m c main_v14) :=
  (dats m 0 c).arrAt_eq_of_cover 9 _ (fun t _ => flushed_eq m hbody c t) cover

/-- Read through the host lines before the launch: row r = 64·b + s of `GK` is window (b, s) of the arguments. -/
theorem GK_at (c : Dev nD) (b : Fin 32) (s n : Fin 64) (o : Fin 768) (r : Fin 2048) (hr : r.val = 64 * b.val + s.val) :
    GK (V m c main_v0) (V m c main_v4) (V m c main_v5) (V m c main_v6) (V m c main_v8) (V m c main_v10) (V m c main_v12) (V m c main_v13) (V m c main_v14) (ix3 r n o)
      = Attn.winOut (ax m c) (aW1 m c) (ab1 m c) (aW2 m c) (ab2 m c) b s n o :=
  window_congr Attn.eighth
    (fun n i => v0_at m c b s n i r hr) (fun i d => v4_at m c i d) (fun i d => v5_at m c i d) (fun i d => v6_at m c i d)
    (fun d => v8_at m c d) (fun d => v10_at m c d) (fun d => v12_at m c d)
    (fun d o => v13_at m c d o) (fun o => v14_at m c o) n o

end Cert.Blocks

end
-- ==== Proof.KernelRun.lean ====
/-
  The kernel's run, read. After the launch the result array [2048, 64, 768] holds, at (r, n, o), the attention window of
  row-block r; the one host line after the launch re-reads it as [32, 64, 64, 768], entry (b, s, n, o) being entry
  (64·b + s, n, o). Row 64·b + s is window (b, s) of the argument arrays, so the program's result is the function
  `Attn.G` of its five arguments, and the arguments end as they began.
-/
import proofs.«159999_j46394236731817_2_alg».proof.Proof.Blocks
import Idealize.ShloMosaic.Lib.Pipeline.Value
import Idealize.ShloMosaic.Lib.StableHlo.Run
import Idealize.ShloMosaic.Lib.Tactic

noncomputable section

namespace Cert.KernelRun

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo
open Cert.Entry Cert.Blocks

variable (m : (ℓ : Loc nD τ sig) → Buf (Elt Ideal) ℓ) (ρ : Dev nD → PrngReg)

/-- The host line after the launch re-reads the result array as [32, 64, 64, 768]. -/
theorem tail_term (c : Dev nD) :
    (Pipeline.afterTail₀ cfgs (dats m) 0 (V0 m) [hostOps1] c main_v16 : S32x64x64x768.Idx → EReal)
      = shapeCast S32x64x64x768 ((dats m 0 c).arrAt 9 cfg0.N : S2048x64x768.Idx → EReal) shapeCasts_S2048x64x768_S32x64x64x768 := by
  unfold Pipeline.afterTail₀
  show StableHlo.after hostOps1 _ (Proc.devRef .tc main_v16) = _
  after_results
  exact congrArg (fun A : S2048x64x768.Idx → EReal => shapeCast S32x64x64x768 A shapeCasts_S2048x64x768_S32x64x64x768)
    (Pipeline.withArrays_arr spec0 launch0.win.arr_inj c (V0 m c) (fun w => (dats m 0 c).arrAt w cfg0.N) 9)

/-- The program's result is `Attn.G` of the five argument arrays. -/
theorem result_eq (hbody : BodySpec) (c : Dev nD) :
    (Pipeline.afterTail₀ cfgs (dats m) 0 (V0 m) [hostOps1] c main_v16 : S32x64x64x768.Idx → EReal)
      = Attn.G (ax m c) (aW1 m c) (ab1 m c) (aW2 m c) (ab2 m c) := by
  rw [tail_term, final m hbody c]
  funext i
  obtain ⟨b, s, n, o, rfl⟩ : ∃ (b : Fin 32) (s n : Fin 64) (o : Fin 768), i = ix4 b s n o := ⟨i 0, i 1, i 2, i 3, eq_ix4 i⟩
  refine (shapeCast_apply _ _ _ (ix3 (⟨64 * b.val + s.val, by have := b.isLt; have := s.isLt; omega⟩ : Fin 2048) n o) ?_).trans ?_
  · rw [Shape.rowMajor_val_three, Shape.rowMajor_val_four]
    show ((64 * b.val + s.val) * 64 + n.val) * 768 + o.val = ((b.val * 64 + s.val) * 64 + n.val) * 768 + o.val
    omega
  · exact GK_at m c b s n o _ rfl

/-- Every weakly fair execution of the kernel's program terminates with its result at `Attn.G` of the arguments and
    the arguments unchanged. -/
theorem run (hbody : BodySpec) : θ_run defs (onTc (τ := τ) (main (F := Ideal))) ⟨m, fun _ => 0, ρ⟩ fun r => ∀ c : Dev nD,
      r.2.mem ((c.tc : Thread nD τ).loc main_v16) = Attn.G (ax m c) (aW1 m c) (ab1 m c) (aW2 m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_eq m hbody c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelRun

end
-- ==== Proof.lean ====
/-
  A Pallas attention kernel against its jnp reference, equal on the extended reals.

  Both programs take an input of 32 × 64 windows of 64 tokens with 768 features, and per window compute queries, keys
  and values (three affine maps to 64 features), the scaled scores q·kᵀ, their row-wise softmax, the weighted average
  of the values, and an affine map back to 768 features. The kernel handles 32 windows per grid point, with the first
  weight matrix cut into its three bands and transposed by the host beforehand, and scales the scores by the float 1/8;
  the reference applies one matrix product with the whole weight matrix, slices the result in three, and divides the
  scores by the square root of the float 64. With exact arithmetic every matrix product is the same sum of products
  whatever its tiling, a change of float format is the identity, and the two scalings agree at every extended real
  (`Attn.div_sqrt64`), so both results are the one function `Attn.G` of the five arguments.

  The modules: `Attn` (the function and the law), `RefAttn` (the reference computes it), `BodyAttn` (the kernel's
  body computes one window of it on each window of a block), `Entry` (the staged arrays in terms of the arguments),
  `Blocks` (from the blocks the points write to the whole result array), `KernelRun` (the kernel's run, read). The
  three frames are the generated ones; the idealization rewrote nothing, so it is preserved trivially; no step uses
  the finiteness of the inputs.
-/
import proofs.«159999_j46394236731817_2_alg».proof.Defs
import proofs.«159999_j46394236731817_2_alg».proof.Proof.Gen.Kernel
import proofs.«159999_j46394236731817_2_alg».proof.Proof.Gen.Kernel.Skeleton
import proofs.«159999_j46394236731817_2_alg».proof.Proof.Gen.Kernel.Launch
import proofs.«159999_j46394236731817_2_alg».proof.Proof.Gen.Kernel.Points
import proofs.«159999_j46394236731817_2_alg».proof.Proof.Gen.Kernel.Frame
import proofs.«159999_j46394236731817_2_alg».proof.Proof.Gen.KernelIdeal
import proofs.«159999_j46394236731817_2_alg».proof.Proof.Gen.KernelIdeal.Skeleton
import proofs.«159999_j46394236731817_2_alg».proof.Proof.Gen.KernelIdeal.Launch
import proofs.«159999_j46394236731817_2_alg».proof.Proof.Gen.KernelIdeal.Points
import proofs.«159999_j46394236731817_2_alg».proof.Proof.Gen.KernelIdeal.Frame
import proofs.«159999_j46394236731817_2_alg».proof.Proof.Gen.ReferenceIdeal
import proofs.«159999_j46394236731817_2_alg».proof.Proof.Gen.Pre_finite_inputs
import proofs.«159999_j46394236731817_2_alg».proof.Proof.Gen.ReferenceIdeal.Run
import proofs.«159999_j46394236731817_2_alg».proof.Proof.Gen.ReferenceIdeal.Read
import proofs.«159999_j46394236731817_2_alg».proof.Proof.Attn
import proofs.«159999_j46394236731817_2_alg».proof.Proof.RefAttn
import proofs.«159999_j46394236731817_2_alg».proof.Proof.BodyAttn
import proofs.«159999_j46394236731817_2_alg».proof.Proof.KernelRun
import Idealize.ShloMosaic.Adequacy
import Idealize.ShloMosaic.Init

noncomputable section

namespace Cert.Proof

open Idealize.ShloMosaic Idealize.SL.Sem

/-- The kernel's body maps each window of a block by the attention window. -/
theorem body : Cert.Blocks.BodySpec := Cert.BodyAttn.body_eq

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at `Attn.G` of its arguments and the
    reference's at the same function of its own. -/
theorem algebraic : Cert.algebraic_KernelIdeal_ReferenceIdeal := by
  intro m ρ m' ρ' _ hagree
  refine ⟨_, Cert.KernelRun.run m ρ body, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefAttn.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
